-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x2 : Shape := ⟨2, ![128, 2]⟩
abbrev S2 : Shape := ⟨1, ![2]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_

variable [Facts]

def fn_part3 {F : FTy → Type} [FloatOps F] (main_arg12 : FVec F S32x2 .f32) (main_arg13 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x2 .f32 := Host.absf main_arg12
  let main_cst_20 : FVec F S_ .f32 := constant S_ .f32 0x7F800000#32
  let main_v55 : FVec F S32x2 .f32 := broadcastInDim S32x2 ![] bcast_S_S32x2 main_cst_20
  let main_v56 : IVec S32x2 1 := cmpf .olt main_v54 main_v55
  let main_c_21 : IVec S_ 1 := constantI S_ 1 1#1
  let main_v57 : IVec S_ 1 := (fun x v => Host.reduce IntOp.andi x v reducesTo_S32x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S128x2 .f32) (main_arg9 : FVec F S2 .f32) (main_arg10 : FVec F S64x32 .f32) (main_arg11 : FVec F S32 .f32) (main_arg12 : FVec F S32x2 .f32) (main_arg13 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S2 .f32) (main_arg6 : FVec F S64x64 .f32) (main_arg7 : FVec F S64 .f32) (main_arg8 : FVec F S128x2 .f32) (main_arg9 : FVec F S2 .f32) (main_arg10 : FVec F S64x32 .f32) (main_arg11 : FVec F S32 .f32) (main_arg12 : FVec F S32x2 .f32) (main_arg13 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x64 .f32) (main_arg3 : FVec F S64 .f32) (main_arg4 : FVec F S128x2 .f32) (main_arg5 : FVec F S2 .f32) (main_arg6 : FVec F S64x64 .f32) (main_arg7 : FVec F S64 .f32) (main_arg8 : FVec F S128x2 .f32) (main_arg9 : FVec F S2 .f32) (main_arg10 : FVec F S64x32 .f32) (main_arg11 : FVec F S32 .f32) (main_arg12 : FVec F S32x2 .f32) (main_arg13 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x2 : Shape := ⟨2, ![128, 2]⟩
abbrev S2 : Shape := ⟨1, ![2]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S64x2 : Shape := ⟨2, ![64, 2]⟩
abbrev S1x2 : Shape := ⟨2, ![1, 2]⟩
abbrev S1600000x2 : Shape := ⟨2, ![1600000, 2]⟩
abbrev S10000x2 : Shape := ⟨2, ![10000, 2]⟩
abbrev S1600000x32 : Shape := ⟨2, ![1600000, 32]⟩
abbrev S1600000x2x1 : Shape := ⟨3, ![1600000, 2, 1]⟩
abbrev S1600000x1x32 : Shape := ⟨3, ![1600000, 1, 32]⟩
abbrev S1600000x2x32 : Shape := ⟨3, ![1600000, 2, 32]⟩
abbrev S1x32 : Shape := ⟨2, ![1, 32]⟩
abbrev S100000x2 : Shape := ⟨2, ![100000, 2]⟩
abbrev S10000x32 : Shape := ⟨2, ![10000, 32]⟩

abbrev nBuf : Space → Nat
  | .hbm => 121
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x2, .f32⟩
  | .hbm, ⟨5, _⟩ => ⟨S2, .f32⟩
  | .hbm, ⟨6, _⟩ => ⟨S64x64, .f32⟩
  | .hbm, ⟨7, _⟩ => ⟨S64, .f32⟩
  | .hbm, ⟨8, _⟩ => ⟨S128x2, .f32⟩
  | .hbm, ⟨9, _⟩ => ⟨S2, .f32⟩
  | .hbm, ⟨10, _⟩ => ⟨S64x32, .f32⟩
  | .hbm, ⟨11, _⟩ => ⟨S32, .f32⟩
  | .hbm, ⟨12, _⟩ => ⟨S32x2, .f32⟩
  | .hbm, ⟨13, _⟩ => ⟨S2, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1x64, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S64x2, .f32⟩
  | .hbm, ⟨39, _⟩ => ⟨S64x2, .f32⟩
  | .hbm, ⟨40, _⟩ => ⟨S1x2, .f32⟩
  | .hbm, ⟨41, _⟩ => ⟨S1600000x2, .f32⟩
  | .hbm, ⟨42, _⟩ => ⟨S_, .f32⟩
  | .hbm, ⟨43, _⟩ => ⟨S2, .f32⟩
  | .hbm, ⟨44, _⟩ => ⟨S_, .f32⟩
  | .hbm, ⟨45, _⟩ => ⟨S2, .f32⟩
  | .hbm, ⟨46, _⟩ => ⟨S2, .f32⟩
  | .hbm, ⟨47, _⟩ => ⟨S1x2, .f32⟩
  | .hbm, ⟨48, _⟩ => ⟨S1600000x2, .f32⟩
  | .hbm, ⟨49, _⟩ => ⟨S1600000x2, .f32⟩
  | .hbm, ⟨50, _⟩ => ⟨S1600000x2, .f32⟩
  | .hbm, ⟨51, _⟩ => ⟨S_, .f32⟩
  | .hbm, ⟨52, _⟩ => ⟨S2, .f32⟩
  | .hbm, ⟨53, _⟩ => ⟨S1x2, .f32⟩
  | .hbm, ⟨54, _⟩ => ⟨S1600000x2, .f32⟩
  | .hbm, ⟨55, _⟩ => ⟨S1600000x2, .f32⟩
  | .hbm, ⟨56, _⟩ => ⟨S1600000x32, .f32⟩
  | .hbm, ⟨57, _⟩ => ⟨S1600000x2x1, .f32⟩
  | .hbm, ⟨58, _⟩ => ⟨S1600000x1x32, .f32⟩
  | .hbm, ⟨59, _⟩ => ⟨S1600000x2x32, .f32⟩
  | .hbm, ⟨60, _⟩ => ⟨S1600000x2x32, .f32⟩
  | .hbm, ⟨61, _⟩ => ⟨S1600000x2x32, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S64x2, .f32⟩
  | .hbm, ⟨89, _⟩ => ⟨S64x2, .f32⟩
  | .hbm, ⟨90, _⟩ => ⟨S1x2, .f32⟩
  | .hbm, ⟨91, _⟩ => ⟨S1600000x2, .f32⟩
  | .hbm, ⟨92, _⟩ => ⟨S_, .f32⟩
  | .hbm, ⟨93, _⟩ => ⟨S2, .f32⟩
  | .hbm, ⟨94, _⟩ => ⟨S_, .f32⟩
  | .hbm, ⟨95, _⟩ => ⟨S2, .f32⟩
  | .hbm, ⟨96, _⟩ => ⟨S2, .f32⟩
  | .hbm, ⟨97, _⟩ => ⟨S1x2, .f32⟩
  | .hbm, ⟨98, _⟩ => ⟨S1600000x2, .f32⟩
  | .hbm, ⟨99, _⟩ => ⟨S1600000x2, .f32⟩
  | .hbm, ⟨100, _⟩ => ⟨S1600000x2, .f32⟩
  | .hbm, ⟨101, _⟩ => ⟨S_, .f32⟩
  | .hbm, ⟨102, _⟩ => ⟨S2, .f32⟩
  | .hbm, ⟨103, _⟩ => ⟨S1x2, .f32⟩
  | .hbm, ⟨104, _⟩ => ⟨S1600000x2, .f32⟩
  | .hbm, ⟨105, _⟩ => ⟨S1600000x2, .f32⟩
  | .hbm, ⟨106, _⟩ => ⟨S1600000x32, .f32⟩
  | .hbm, ⟨107, _⟩ => ⟨S1600000x2x1, .f32⟩
  | .hbm, ⟨108, _⟩ => ⟨S1600000x1x32, .f32⟩
  | .hbm, ⟨109, _⟩ => ⟨S1600000x2x32, .f32⟩
  | .hbm, ⟨110, _⟩ => ⟨S1600000x2x32, .f32⟩
  | .hbm, ⟨111, _⟩ => ⟨S1600000x2x32, .f32⟩
  | .hbm, ⟨112, _⟩ => ⟨S1600000x64, .f32⟩
  | .hbm, ⟨113, _⟩ => ⟨S_, .f32⟩
  | .hbm, ⟨114, _⟩ => ⟨S100000x64, .f32⟩
  | .hbm, ⟨115, _⟩ => ⟨S1600000x1, .i32⟩
  | .hbm, ⟨116, _⟩ => ⟨S100000x64, .f32⟩
  | .hbm, ⟨117, _⟩ => ⟨S100000x64, .f32⟩
  | .hbm, ⟨118, _⟩ => ⟨S1x32, .f32⟩
  | .hbm, ⟨119, _⟩ => ⟨S1x2, .f32⟩
  | .hbm, ⟨120, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x2, .f32⟩
  | .local _ .vmem, ⟨11, _⟩ => ⟨S64x2, .f32⟩
  | .local _ .vmem, ⟨12, _⟩ => ⟨S1x2, .f32⟩
  | .local _ .vmem, ⟨13, _⟩ => ⟨S10000x2, .f32⟩
  | .local _ .vmem, ⟨14, _⟩ => ⟨S10000x2, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x2, .f32⟩
  | .local _ .vmem, ⟨32, _⟩ => ⟨S64x2, .f32⟩
  | .local _ .vmem, ⟨33, _⟩ => ⟨S1x2, .f32⟩
  | .local _ .vmem, ⟨34, _⟩ => ⟨S10000x2, .f32⟩
  | .local _ .vmem, ⟨35, _⟩ => ⟨S10000x2, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x32, .f32⟩
  | .local _ .vmem, ⟨45, _⟩ => ⟨S1x32, .f32⟩
  | .local _ .vmem, ⟨46, _⟩ => ⟨S32x2, .f32⟩
  | .local _ .vmem, ⟨47, _⟩ => ⟨S1x2, .f32⟩
  | .local _ .vmem, ⟨48, _⟩ => ⟨S10000x2, .f32⟩
  | .local _ .vmem, ⟨49, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x2_S64x2_0_0 : S128x2.Slices ![0, 0] S64x2
  slices_S128x2_S64x2_64_0 : S128x2.Slices ![64, 0] S64x2
  shapeCasts_S2_S1x2 : S2.ShapeCasts S1x2
  shapeCasts_S10000x64_S10000x64 : S10000x64.ShapeCasts S10000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  reducesTo_S1600000x2_S2_d0 : S1600000x2.ReducesTo [0] S2
  h_S_ : 0 < S_.numel
  bcast_S_S2 : S_.BroadcastsInDim S2 (![] : Fin 0 → Fin S2.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  slices_S1600000x64_S1600000x32_0_0 : S1600000x64.Slices ![0, 0] S1600000x32
  bcast_S1600000x2_S1600000x2x1_0_1 : S1600000x2.BroadcastsInDim S1600000x2x1 (![0, 1] : Fin 2 → Fin S1600000x2x1.rank)
  bcast_S1600000x32_S1600000x1x32_0_2 : S1600000x32.BroadcastsInDim S1600000x1x32 (![0, 2] : Fin 2 → Fin S1600000x1x32.rank)
  bcast_S1600000x2x1_S1600000x2x32_0_1_2 : S1600000x2x1.BroadcastsInDim S1600000x2x32 (![0, 1, 2] : Fin 3 → Fin S1600000x2x32.rank)
  bcast_S1600000x1x32_S1600000x2x32_0_1_2 : S1600000x1x32.BroadcastsInDim S1600000x2x32 (![0, 1, 2] : Fin 3 → Fin S1600000x2x32.rank)
  shapeCasts_S1600000x2x32_S1600000x64 : S1600000x2x32.ShapeCasts S1600000x64
  bcast_S_S100000x64 : S_.BroadcastsInDim S100000x64 (![] : Fin 0 → Fin S100000x64.rank)
  inb_S64x64_S64x64_0_0 : ∀ a, (![0, 0] : Fin 2 → Nat) a + S64x64.size a ≤ S64x64.size a
  h_S64x64 : 0 < S64x64.numel
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x2_S32x2_0_0 : ∀ a, (![0, 0] : Fin 2 → Nat) a + S32x2.size a ≤ S32x2.size a
  h_S32x2 : 0 < S32x2.numel
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  dot_S10000x64_S64x2_S10000x2_1_0_0_1_n_n_wf : DotDims.WF S10000x64 S64x2 S10000x2 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1600000x64.size a
  hwx1_1 : ∀ i : grid1.Coords, EltTy.bits .f32 = 32 ∨ (Rect.block (s := S1600000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2.size a ≤ S64x2.size a
  hwx1_3 : ∀ i : grid1.Coords, EltTy.bits .f32 = 32 ∨ (Rect.block (s := S64x2) S64x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x2.size a ≤ S1600000x2.size a
  hwx1_5 : ∀ i : grid1.Coords, EltTy.bits .f32 = 32 ∨ (Rect.block (s := S1600000x2) S10000x2.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1600000x64.size a
  hwx4_0 : ∀ i : grid4.Coords, EltTy.bits .f32 = 32 ∨ (Rect.block (s := S1600000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1600000x64.size a
  hwx4_1 : ∀ i : grid4.Coords, EltTy.bits .f32 = 32 ∨ (Rect.block (s := S1600000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x2.size a ≤ S64x2.size a
  hwx4_2 : ∀ i : grid4.Coords, EltTy.bits .f32 = 32 ∨ (Rect.block (s := S64x2) S64x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x2.size a ≤ S1600000x2.size a
  hwx4_5 : ∀ i : grid4.Coords, EltTy.bits .f32 = 32 ∨ (Rect.block (s := S1600000x2) S10000x2.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x2.size a ≤ S32x2.size a
  hwx6_3 : ∀ i : grid6.Coords, EltTy.bits .f32 = 32 ∨ (Rect.block (s := S32x2) S32x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x2.size a ≤ S100000x2.size a
  hwx6_5 : ∀ i : grid6.Coords, EltTy.bits .f32 = 32 ∨ (Rect.block (s := S100000x2) S10000x2.size (cc6_transform_5 i) (hinb6_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S10000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S64x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S64x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S10000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v86) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S32x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S10000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x2 : Shape := ⟨2, ![128, 2]⟩
abbrev S2 : Shape := ⟨1, ![2]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S100000x64 : Shape := ⟨2, ![100000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x2 : Shape := ⟨2, ![64, 2]⟩
abbrev S1600000x2 : Shape := ⟨2, ![1600000, 2]⟩
abbrev S1x2 : Shape := ⟨2, ![1, 2]⟩
abbrev S1600000x2x1 : Shape := ⟨3, ![1600000, 2, 1]⟩
abbrev S1600000x32 : Shape := ⟨2, ![1600000, 32]⟩
abbrev S1600000x1x32 : Shape := ⟨3, ![1600000, 1, 32]⟩
abbrev S1600000x2x32 : Shape := ⟨3, ![1600000, 2, 32]⟩
abbrev S100000x32 : Shape := ⟨2, ![100000, 32]⟩
abbrev S1x32 : Shape := ⟨2, ![1, 32]⟩
abbrev S100000x2 : Shape := ⟨2, ![100000, 2]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S128x2, .f32⟩
  | 5 => ⟨S2, .f32⟩
  | 6 => ⟨S64x64, .f32⟩
  | 7 => ⟨S64, .f32⟩
  | 8 => ⟨S128x2, .f32⟩
  | 9 => ⟨S2, .f32⟩
  | 10 => ⟨S64x32, .f32⟩
  | 11 => ⟨S32, .f32⟩
  | 12 => ⟨S32x2, .f32⟩
  | 13 => ⟨S2, .f32⟩
  | 14 => ⟨S100000x64, .f32⟩
  | 15 => ⟨S1x64, .f32⟩
  | 16 => ⟨S100000x64, .f32⟩
  | 17 => ⟨S100000x64, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S64x2, .f32⟩
  | 41 => ⟨S1600000x2, .f32⟩
  | 42 => ⟨S64x2, .f32⟩
  | 43 => ⟨S1600000x2, .f32⟩
  | 44 => ⟨S1600000x2, .f32⟩
  | 45 => ⟨S1x2, .f32⟩
  | 46 => ⟨S1600000x2, .f32⟩
  | 47 => ⟨S1600000x2, .f32⟩
  | 48 => ⟨S_, .f32⟩
  | 49 => ⟨S2, .f32⟩
  | 50 => ⟨S_, .f32⟩
  | 51 => ⟨S2, .f32⟩
  | 52 => ⟨S2, .f32⟩
  | 53 => ⟨S1x2, .f32⟩
  | 54 => ⟨S1600000x2, .f32⟩
  | 55 => ⟨S1600000x2, .f32⟩
  | 56 => ⟨S1600000x2, .f32⟩
  | 57 => ⟨S_, .f32⟩
  | 58 => ⟨S2, .f32⟩
  | 59 => ⟨S1x2, .f32⟩
  | 60 => ⟨S1600000x2, .f32⟩
  | 61 => ⟨S1600000x2, .f32⟩
  | 62 => ⟨S1600000x2x1, .f32⟩
  | 63 => ⟨S1600000x32, .f32⟩
  | 64 => ⟨S1600000x1x32, .f32⟩
  | 65 => ⟨S1600000x2x32, .f32⟩
  | 66 => ⟨S1600000x2x32, .f32⟩
  | 67 => ⟨S1600000x2x32, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S1x1600000, .i32⟩
  | 82 => ⟨S1600000, .i32⟩
  | 83 => ⟨S1x1600000, .i32⟩
  | 84 => ⟨S1600000, .i32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S64x2, .f32⟩
  | 104 => ⟨S1600000x2, .f32⟩
  | 105 => ⟨S64x2, .f32⟩
  | 106 => ⟨S1600000x2, .f32⟩
  | 107 => ⟨S1600000x2, .f32⟩
  | 108 => ⟨S1x2, .f32⟩
  | 109 => ⟨S1600000x2, .f32⟩
  | 110 => ⟨S1600000x2, .f32⟩
  | 111 => ⟨S_, .f32⟩
  | 112 => ⟨S2, .f32⟩
  | 113 => ⟨S_, .f32⟩
  | 114 => ⟨S2, .f32⟩
  | 115 => ⟨S2, .f32⟩
  | 116 => ⟨S1x2, .f32⟩
  | 117 => ⟨S1600000x2, .f32⟩
  | 118 => ⟨S1600000x2, .f32⟩
  | 119 => ⟨S1600000x2, .f32⟩
  | 120 => ⟨S_, .f32⟩
  | 121 => ⟨S2, .f32⟩
  | 122 => ⟨S1x2, .f32⟩
  | 123 => ⟨S1600000x2, .f32⟩
  | 124 => ⟨S1600000x2, .f32⟩
  | 125 => ⟨S1600000x2x1, .f32⟩
  | 126 => ⟨S1600000x32, .f32⟩
  | 127 => ⟨S1600000x1x32, .f32⟩
  | _ => ⟨S100000x128, .f32⟩

abbrev hbmTy0_1 (i : Nat) : BufTy := match i % 128 with
  | 0 => ⟨S1600000x2x32, .f32⟩
  | 1 => ⟨S1600000x2x32, .f32⟩
  | 2 => ⟨S1600000x2x32, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x32, .f32⟩
  | 13 => ⟨S1x32, .f32⟩
  | 14 => ⟨S100000x32, .f32⟩
  | 15 => ⟨S100000x32, .f32⟩
  | 16 => ⟨S_, .f32⟩
  | 17 => ⟨S100000x32, .f32⟩
  | 18 => ⟨S100000x32, .f32⟩
  | 19 => ⟨S100000x2, .f32⟩
  | 20 => ⟨S1x2, .f32⟩
  | 21 => ⟨S100000x2, .f32⟩
  | 22 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_6 : Ref sig .tc := ⟨.hbm, 85, rfl⟩
abbrev main_v61 : Ref sig .tc := ⟨.hbm, 86, rfl⟩
abbrev main_v62 : Ref sig .tc := ⟨.hbm, 87, rfl⟩
abbrev main_c_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_8 : Ref sig .tc := ⟨.hbm, 94, rfl⟩
abbrev main_v68 : Ref sig .tc := ⟨.hbm, 95, rfl⟩
abbrev main_v69 : Ref sig .tc := ⟨.hbm, 96, rfl⟩
abbrev main_c_9 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_cst_11 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_12 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_13 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_call1_cst : Ref sig .tc := ⟨.hbm, 137, rfl⟩
abbrev main_call1_v0 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_call2_cst : Ref sig .tc := ⟨.hbm, 144, rfl⟩
abbrev main_call2_v0 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x2_S64x2_0_0 : S128x2.Slices ![0, 0] S64x2
  slices_S128x2_S64x2_64_0 : S128x2.Slices ![64, 0] S64x2
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  reducesTo_S1600000x2_S2_d0 : S1600000x2.ReducesTo [0] S2
  h_S_ : 0 < S_.numel
  bcast_S_S2 : S_.BroadcastsInDim S2 (![] : Fin 0 → Fin S2.rank)
  bcast_S1600000x2_S1600000x2x1_0_1 : S1600000x2.BroadcastsInDim S1600000x2x1 (![0, 1] : Fin 2 → Fin S1600000x2x1.rank)
  slices_S1600000x64_S1600000x32_0_0 : S1600000x64.Slices ![0, 0] S1600000x32
  bcast_S1600000x32_S1600000x1x32_0_2 : S1600000x32.BroadcastsInDim S1600000x1x32 (![0, 2] : Fin 2 → Fin S1600000x1x32.rank)
  bcast_S1600000x2x1_S1600000x2x32_0_1_2 : S1600000x2x1.BroadcastsInDim S1600000x2x32 (![0, 1, 2] : Fin 3 → Fin S1600000x2x32.rank)
  bcast_S1600000x1x32_S1600000x2x32_0_1_2 : S1600000x1x32.BroadcastsInDim S1600000x2x32 (![0, 1, 2] : Fin 3 → Fin S1600000x2x32.rank)
  shapeCasts_S1600000x2x32_S1600000x64 : S1600000x2x32.ShapeCasts S1600000x64
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x2_S100000x2_0_1 : S1x2.BroadcastsInDim S100000x2 (![0, 1] : Fin 2 → Fin S100000x2.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x2_S1600000x2_1_0_0_1_n_n_wf : DotDims.WF S1600000x64 S64x2 S1600000x2 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x2_S1600000x2_1_0_0_1_n_n : DotDims S1600000x64 S64x2 S1600000x2 where
  lhsContracting := [1]
  rhsContracting := [0]
  lhsNonContracting := [0]
  rhsNonContracting := [1]
  lhsBatch := []
  rhsBatch := []
  wf := dot_S1600000x64_S64x2_S1600000x2_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.RunAll.lean ====
/-
  The idealized kernel's run, with EVERY buffer named. @main is fourteen segments: seven stretches of host operations, each
  followed by one tiled region. Reading the buffers' contents boundary by boundary gives a chain of valuations, the launch
  memory first and `Gen.W14` last (a host stretch applies its operations to the valuation before it; a region replaces
  each of its arrays by what its write-backs leave and keeps every other buffer). The theorem here says that every weakly
  fair execution terminates, faults nowhere, and ends with every unscoped buffer holding exactly what that last valuation
  gives it — the result buffer included, which the frame claim by itself does not keep.
-/
import proofs.«151397_j43499428774652_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when @main starts: every unscoped buffer at its launch contents, its generator register, and a
    tally that owes nothing. -/
abbrev start (c : Dev nD) : sProp 𝕄 :=
  iprop(StableHlo.held (c : Thread nD τ) (Pipeline.ucRefs τ sig) (W0 m ρ c) ∗ R c)

set_option backward.isDefEq.respectTransparency.types false in
/-- Every weakly fair execution of the idealized kernel terminates without a fault, and in its final memory every
    unscoped buffer of every core holds what the last valuation of the chain gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := start m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      -- the launch memory IS the first valuation, so the buffers the launch hands a core are the first thread state's
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      iexists ∅; iexact Howes)
    (QY := fun c s => ∀ b ∈ Pipeline.ucRefs τ sig, s.mem (((c : Thread nD τ)).1, b) = W14 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W14 m ρ c) s')
      isplitl [Hbufs] <;> iassumption)
    (hQ := fun s h => h)

end Cert.KernelIdeal.Whole

end
-- ==== Proof.PayloadAt.lean ====
import proofs.«151397_j43499428774652_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Payload

open Cert.KernelIdeal Cert.KernelIdeal.Gen Idealize.ShloMosaic Idealize.SL.Sem Idealize.ShloMosaic.ValueIdx
open scoped BigOperators

/-- The matrix product of an [10000, 128] and a [128, 64] block into the zero accumulator, read at (y, c): the sum over the
    contracted coordinate k of the left operand at (y, k) times the right operand at (k, c). -/
theorem mm_128_64 {φ₁ φ₂ : FTy} (a : FVec Ideal S10000x128 φ₁) (b : FVec Ideal S128x64 φ₂) (y : Fin 10000) (c : Fin 64) :
    matmul (F := Ideal) dot_S10000x128_S128x64_S10000x64_1_0_0_1_n_n none a b (constant (F := Ideal) S10000x64 .f32 0x00000000#32) (ix2 y c)
      = ∑ k : Fin 128, a (ix2 y k) * b (ix2 k c) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 y c) ((ValueIdx.contrEquiv1 dot_S10000x128_S128x64_S10000x64_1_0_0_1_n_n 128 rfl rfl).symm k) = ix2 y k := funext fun d => Fin.ext (by
    match d with
    | ⟨0, _⟩ =>
      show (dot_S10000x128_S128x64_S10000x64_1_0_0_1_n_n.lhsIdx (ix2 y c) _ 0).val = y.val
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl (ix2 y c) _).trans hk)
  have er : dot_S10000x128_S128x64_S10000x64_1_0_0_1_n_n.rhsIdx (ix2 y c) ((ValueIdx.contrEquiv1 dot_S10000x128_S128x64_S10000x64_1_0_0_1_n_n 128 rfl rfl).symm k) = ix2 k c := funext fun d => Fin.ext (by
    match d with
    | ⟨0, _⟩ => exact (dot_S10000x128_S128x64_S10000x64_1_0_0_1_n_n.rhsIdx_val_of_single rfl (ix2 y c) _).trans hk
    | ⟨1, _⟩ =>
      show (dot_S10000x128_S128x64_S10000x64_1_0_0_1_n_n.rhsIdx (ix2 y c) _ 1).val = c.val
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
  rw [el, er]

/-- The matrix product of an [10000, 64] and a [64, 2] block into the zero accumulator, read at (y, c): the sum over the
    contracted coordinate k of the left operand at (y, k) times the right operand at (k, c). -/
theorem mm_64_2 {φ₁ φ₂ : FTy} (a : FVec Ideal S10000x64 φ₁) (b : FVec Ideal S64x2 φ₂) (y : Fin 10000) (c : Fin 2) :
    matmul (F := Ideal) dot_S10000x64_S64x2_S10000x2_1_0_0_1_n_n none a b (constant (F := Ideal) S10000x2 .f32 0x00000000#32) (ix2 y c)
      = ∑ k : Fin 64, a (ix2 y k) * b (ix2 k c) := by
  simp only [matmul]
  rw [Ideal.matmul_constant_zero_apply, ← Equiv.sum_comp (ValueIdx.contrEquiv1 dot_S10000x64_S64x2_S10000x2_1_0_0_1_n_n 64 rfl rfl).symm]
  refine Finset.sum_congr rfl fun k _ => ?_
  have hk := ValueIdx.contrEquiv1_symm_val dot_S10000x64_S64x2_S10000x2_1_0_0_1_n_n 64 rfl rfl k
  have el : dot_S10000x64_S64x2_S10000x2_1_0_0_1_n_n.lhsIdx (ix2 y c) ((ValueIdx.contrEquiv1 dot_S10000x64_S64x2_S10000x2_1_0_0_1_n_n 64 rfl rfl).symm k) = ix2 y k := funext fun d => Fin.ext (by
    match d with
    | ⟨0, _⟩ =>
      show (dot_S10000x64_S64x2_S10000x2_1_0_0_1_n_n.lhsIdx (ix2 y c) _ 0).val = y.val
      unfold DotDims.lhsIdx
      rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
      rfl
    | ⟨1, _⟩ => exact (dot_S10000x64_S64x2_S10000x2_1_0_0_1_n_n.lhsIdx_val_of_single rfl (ix2 y c) _).trans hk)
  have er : dot_S10000x64_S64x2_S10000x2_1_0_0_1_n_n.rhsIdx (ix2 y c) ((ValueIdx.contrEquiv1 dot_S10000x64_S64x2_S10000x2_1_0_0_1_n_n 64 rfl rfl).symm k) = ix2 k c := funext fun d => Fin.ext (by
    match d with
    | ⟨0, _⟩ => exact (dot_S10000x64_S64x2_S10000x2_1_0_0_1_n_n.rhsIdx_val_of_single rfl (ix2 y c) _).trans hk
    | ⟨1, _⟩ =>
      show (dot_S10000x64_S64x2_S10000x2_1_0_0_1_n_n.rhsIdx (ix2 y c) _ 1).val = c.val
      unfold DotDims.rhsIdx
      rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
      rfl)
  rw [el, er]

/-- The matrix product of an [10000, 64] and a [64, 64] block into the zero accumulator, read at (y, c): the sum over the
    contracted coordinate k of the left operand at (y, k) times the right operand at (k, c). -/
theorem mm_64_64 {φ₁ φ₂ : FTy} (a : FVec Ideal S10000x64 φ₁) (b : FVec Ideal S64x64 φ₂) (y : Fin 10000) (c : Fin 64) :
    matmul (F := Ideal) dot_S10000x64_S64x64_S10000x64_1_0_0_1_n_n none a b (constant (F := Ideal) S10000x64 .f32 0x00000000#32) (ix2 y c)
      = ∑ k : Fin 64, a (ix2 y k) * b (ix2 k c) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 y c) ((ValueIdx.contrEquiv1 dot_S10000x64_S64x64_S10000x64_1_0_0_1_n_n 64 rfl rfl).symm k) = ix2 y k := funext fun d => Fin.ext (by
    match d with
    | ⟨0, _⟩ =>
      show (dot_S10000x64_S64x64_S10000x64_1_0_0_1_n_n.lhsIdx (ix2 y c) _ 0).val = y.val
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl
    | ⟨1, _⟩ => exact (dot_S10000x64_S64x64_S10000x64_1_0_0_1_n_n.lhsIdx_val_of_single rfl (ix2 y c) _).trans hk)
  have er : dot_S10000x64_S64x64_S10000x64_1_0_0_1_n_n.rhsIdx (ix2 y c) ((ValueIdx.contrEquiv1 dot_S10000x64_S64x64_S10000x64_1_0_0_1_n_n 64 rfl rfl).symm k) = ix2 k c := funext fun d => Fin.ext (by
    match d with
    | ⟨0, _⟩ => exact (dot_S10000x64_S64x64_S10000x64_1_0_0_1_n_n.rhsIdx_val_of_single rfl (ix2 y c) _).trans hk
    | ⟨1, _⟩ =>
      show (dot_S10000x64_S64x64_S10000x64_1_0_0_1_n_n.rhsIdx (ix2 y c) _ 1).val = c.val
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
  rw [el, er]

/-- The matrix product of an [10000, 64] and a [64, 32] block into the zero accumulator, read at (y, c): the sum over the
    contracted coordinate k of the left operand at (y, k) times the right operand at (k, c). -/
theorem mm_64_32 {φ₁ φ₂ : FTy} (a : FVec Ideal S10000x64 φ₁) (b : FVec Ideal S64x32 φ₂) (y : Fin 10000) (c : Fin 32) :
    matmul (F := Ideal) dot_S10000x64_S64x32_S10000x32_1_0_0_1_n_n none a b (constant (F := Ideal) S10000x32 .f32 0x00000000#32) (ix2 y c)
      = ∑ k : Fin 64, a (ix2 y k) * b (ix2 k c) := by
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 y c) ((ValueIdx.contrEquiv1 dot_S10000x64_S64x32_S10000x32_1_0_0_1_n_n 64 rfl rfl).symm k) = ix2 y k := funext fun d => Fin.ext (by
    match d with
    | ⟨0, _⟩ =>
      show (dot_S10000x64_S64x32_S10000x32_1_0_0_1_n_n.lhsIdx (ix2 y c) _ 0).val = y.val
      unfold DotDims.lhsIdx
      rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
      rfl
    | ⟨1, _⟩ => exact (dot_S10000x64_S64x32_S10000x32_1_0_0_1_n_n.lhsIdx_val_of_single rfl (ix2 y c) _).trans hk)
  have er : dot_S10000x64_S64x32_S10000x32_1_0_0_1_n_n.rhsIdx (ix2 y c) ((ValueIdx.contrEquiv1 dot_S10000x64_S64x32_S10000x32_1_0_0_1_n_n 64 rfl rfl).symm k) = ix2 k c := funext fun d => Fin.ext (by
    match d with
    | ⟨0, _⟩ => exact (dot_S10000x64_S64x32_S10000x32_1_0_0_1_n_n.rhsIdx_val_of_single rfl (ix2 y c) _).trans hk
    | ⟨1, _⟩ =>
      show (dot_S10000x64_S64x32_S10000x32_1_0_0_1_n_n.rhsIdx (ix2 y c) _ 1).val = c.val
      unfold DotDims.rhsIdx
      rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
      rfl)
  rw [el, er]

/-- The matrix product of an [10000, 32] and a [32, 2] block into the zero accumulator, read at (y, c): the sum over the
    contracted coordinate k of the left operand at (y, k) times the right operand at (k, c). -/
theorem mm_32_2 {φ₁ φ₂ : FTy} (a : FVec Ideal S10000x32 φ₁) (b : FVec Ideal S32x2 φ₂) (y : Fin 10000) (c : Fin 2) :
    matmul (F := Ideal) dot_S10000x32_S32x2_S10000x2_1_0_0_1_n_n none a b (constant (F := Ideal) S10000x2 .f32 0x00000000#32) (ix2 y c)
      = ∑ k : Fin 32, a (ix2 y k) * b (ix2 k c) := by
  simp only [matmul]
  rw [Ideal.matmul_constant_zero_apply, ← Equiv.sum_comp (ValueIdx.contrEquiv1 dot_S10000x32_S32x2_S10000x2_1_0_0_1_n_n 32 rfl rfl).symm]
  refine Finset.sum_congr rfl fun k _ => ?_
  have hk := ValueIdx.contrEquiv1_symm_val dot_S10000x32_S32x2_S10000x2_1_0_0_1_n_n 32 rfl rfl k
  have el : dot_S10000x32_S32x2_S10000x2_1_0_0_1_n_n.lhsIdx (ix2 y c) ((ValueIdx.contrEquiv1 dot_S10000x32_S32x2_S10000x2_1_0_0_1_n_n 32 rfl rfl).symm k) = ix2 y k := funext fun d => Fin.ext (by
    match d with
    | ⟨0, _⟩ =>
      show (dot_S10000x32_S32x2_S10000x2_1_0_0_1_n_n.lhsIdx (ix2 y c) _ 0).val = y.val
      unfold DotDims.lhsIdx
      rw [dif_neg (show ¬(0 : Fin S10000x32.rank) ∈ dot_S10000x32_S32x2_S10000x2_1_0_0_1_n_n.lhsBatch by decide), dif_pos (show (0 : Fin S10000x32.rank) ∈ dot_S10000x32_S32x2_S10000x2_1_0_0_1_n_n.lhsNonContracting by decide)]
      rfl
    | ⟨1, _⟩ => exact (dot_S10000x32_S32x2_S10000x2_1_0_0_1_n_n.lhsIdx_val_of_single rfl (ix2 y c) _).trans hk)
  have er : dot_S10000x32_S32x2_S10000x2_1_0_0_1_n_n.rhsIdx (ix2 y c) ((ValueIdx.contrEquiv1 dot_S10000x32_S32x2_S10000x2_1_0_0_1_n_n 32 rfl rfl).symm k) = ix2 k c := funext fun d => Fin.ext (by
    match d with
    | ⟨0, _⟩ => exact (dot_S10000x32_S32x2_S10000x2_1_0_0_1_n_n.rhsIdx_val_of_single rfl (ix2 y c) _).trans hk
    | ⟨1, _⟩ =>
      show (dot_S10000x32_S32x2_S10000x2_1_0_0_1_n_n.rhsIdx (ix2 y c) _ 1).val = c.val
      unfold DotDims.rhsIdx
      rw [dif_neg (show ¬(1 : Fin S32x2.rank) ∈ dot_S10000x32_S32x2_S10000x2_1_0_0_1_n_n.rhsBatch by decide), dif_pos (show (1 : Fin S32x2.rank) ∈ dot_S10000x32_S32x2_S10000x2_1_0_0_1_n_n.rhsNonContracting by decide)]
      rfl)
  rw [el, er]

/-- The row broadcast of a [1, 64] block to [10000, 64], read at (y, c): the block at (0, c). -/
theorem bcastRow64_apply {α : Type} (x : S1x64.Idx → α) (y : Fin 10000) (c : Fin 64) :
    broadcastTo S10000x64 x broadcasts_S1x64_S10000x64 (ix2 y c) = x (ix2 0 c) :=
  broadcastTo_apply x broadcasts_S1x64_S10000x64 (ix2 y c) (ix2 0 c) (fun a => match a with
    | ⟨0, _⟩ => by show 0 = if (1 : Nat) = 1 then 0 else _; rw [if_pos rfl]
    | ⟨1, _⟩ => by show c.val = if (64 : Nat) = 1 then 0 else c.val; rw [if_neg (by decide)])

/-- The row broadcast of a [1, 2] block to [10000, 2], read at (y, c): the block at (0, c). -/
theorem bcastRow2_apply {α : Type} (x : S1x2.Idx → α) (y : Fin 10000) (c : Fin 2) :
    broadcastTo S10000x2 x broadcasts_S1x2_S10000x2 (ix2 y c) = x (ix2 0 c) :=
  broadcastTo_apply x broadcasts_S1x2_S10000x2 (ix2 y c) (ix2 0 c) (fun a => match a with
    | ⟨0, _⟩ => by show 0 = if (1 : Nat) = 1 then 0 else _; rw [if_pos rfl]
    | ⟨1, _⟩ => by show c.val = if (2 : Nat) = 1 then 0 else c.val; rw [if_neg (by decide)])

/-- The row broadcast of a [1, 32] block to [10000, 32], read at (y, c): the block at (0, c). -/
theorem bcastRow32_apply {α : Type} (x : S1x32.Idx → α) (y : Fin 10000) (c : Fin 32) :
    broadcastTo S10000x32 x broadcasts_S1x32_S10000x32 (ix2 y c) = x (ix2 0 c) :=
  broadcastTo_apply x broadcasts_S1x32_S10000x32 (ix2 y c) (ix2 0 c) (fun a => match a with
    | ⟨0, _⟩ => by show 0 = if (1 : Nat) = 1 then 0 else _; rw [if_pos rfl]
    | ⟨1, _⟩ => by show c.val = if (32 : Nat) = 1 then 0 else c.val; rw [if_neg (by decide)])

/-- The first linear layer's block at (y, c): the row of x against the column of W, plus the bias row. -/
theorem k0_pay1_at (x0 : Vec Ideal S10000x128 .f32) (x2 : Vec Ideal S128x64 .f32) (x5 : Vec Ideal S1x64 .f32)
    (y : Fin 10000) (c : Fin 64) :
    k0_pay1 (F := Ideal) x0 x2 x5 (ix2 y c) = (∑ k : Fin 128, x0 (ix2 y k) * x2 (ix2 k c)) + x5 (ix2 0 c) := by
  unfold k0_pay1
  rw [shapeCast_self]
  show matmul (F := Ideal) dot_S10000x128_S128x64_S10000x64_1_0_0_1_n_n none _ _ _ (ix2 y c) + broadcastTo S10000x64 x5 broadcasts_S1x64_S10000x64 (ix2 y c) = _
  rw [mm_128_64, bcastRow64_apply]
  rfl

/-- The residual sum's rectifier at (y, c): the larger of the sum and zero. -/
theorem k2_pay1_at (v0 v2 : Vec Ideal S10000x64 .f32) (y : Fin 10000) (c : Fin 64) :
    k2_pay1 (F := Ideal) v0 v2 (ix2 y c) = max (v0 (ix2 y c) + v2 (ix2 y c)) 0 := by
  unfold k2_pay1
  simp only [shapeCast_self]
  show max (v0 (ix2 y c) + v2 (ix2 y c)) (Ideal.ofBits .f32 0x00000000#32) = _
  rw [Ideal.ofBits_zero_f32]

/-- The residual sum's rectifier at (y, c): the larger of the sum and zero. -/
theorem k5_pay1_at (v0 v2 : Vec Ideal S10000x64 .f32) (y : Fin 10000) (c : Fin 64) :
    k5_pay1 (F := Ideal) v0 v2 (ix2 y c) = max (v0 (ix2 y c) + v2 (ix2 y c)) 0 := by
  unfold k5_pay1
  simp only [shapeCast_self]
  show max (v0 (ix2 y c) + v2 (ix2 y c)) (Ideal.ofBits .f32 0x00000000#32) = _
  rw [Ideal.ofBits_zero_f32]

/-- The attention logits' block at (y, h): the source row against A_src plus the destination row against A_dst, plus the bias row. -/
theorem k1_pay1_at (v0 v3 : Vec Ideal S10000x64 .f32) (v6 v9 : Vec Ideal S64x2 .f32) (v15 : Vec Ideal S1x2 .f32)
    (y : Fin 10000) (h : Fin 2) :
    k1_pay1 (F := Ideal) v0 v3 v6 v9 v15 (ix2 y h)
      = ((∑ k : Fin 64, v0 (ix2 y k) * v6 (ix2 k h)) + (∑ k : Fin 64, v3 (ix2 y k) * v9 (ix2 k h))) + v15 (ix2 0 h) := by
  unfold k1_pay1
  simp only [shapeCast_self]
  show (matmul (F := Ideal) dot_S10000x64_S64x2_S10000x2_1_0_0_1_n_n none _ _ _ (ix2 y h)
      + matmul (F := Ideal) dot_S10000x64_S64x2_S10000x2_1_0_0_1_n_n none _ _ _ (ix2 y h))
      + broadcastTo S10000x2 v15 broadcasts_S1x2_S10000x2 (ix2 y h) = _
  rw [mm_64_2, mm_64_2, bcastRow2_apply]
  rfl

/-- The attention logits' block at (y, h): the source row against A_src plus the destination row against A_dst, plus the bias row. -/
theorem k4_pay1_at (v0 v3 : Vec Ideal S10000x64 .f32) (v6 v9 : Vec Ideal S64x2 .f32) (v15 : Vec Ideal S1x2 .f32)
    (y : Fin 10000) (h : Fin 2) :
    k4_pay1 (F := Ideal) v0 v3 v6 v9 v15 (ix2 y h)
      = ((∑ k : Fin 64, v0 (ix2 y k) * v6 (ix2 k h)) + (∑ k : Fin 64, v3 (ix2 y k) * v9 (ix2 k h))) + v15 (ix2 0 h) := by
  unfold k4_pay1
  simp only [shapeCast_self]
  show (matmul (F := Ideal) dot_S10000x64_S64x2_S10000x2_1_0_0_1_n_n none _ _ _ (ix2 y h)
      + matmul (F := Ideal) dot_S10000x64_S64x2_S10000x2_1_0_0_1_n_n none _ _ _ (ix2 y h))
      + broadcastTo S10000x2 v15 broadcasts_S1x2_S10000x2 (ix2 y h) = _
  rw [mm_64_2, mm_64_2, bcastRow2_apply]
  rfl

/-- The second linear layer's block at (y, c). -/
theorem k3_pay1_at (x0 : Vec Ideal S10000x64 .f32) (x3 : Vec Ideal S64x64 .f32) (x6 : Vec Ideal S1x64 .f32)
    (y : Fin 10000) (c : Fin 64) :
    k3_pay1 (F := Ideal) x0 x3 x6 (ix2 y c) = (∑ k : Fin 64, x0 (ix2 y k) * x3 (ix2 k c)) + x6 (ix2 0 c) := by
  unfold k3_pay1
  simp only [shapeCast_self]
  show matmul (F := Ideal) dot_S10000x64_S64x64_S10000x64_1_0_0_1_n_n none _ _ _ (ix2 y c) + broadcastTo S10000x64 x6 broadcasts_S1x64_S10000x64 (ix2 y c) = _
  rw [mm_64_64, bcastRow64_apply]
  rfl

/-- The classifier's block at (y, c): the hidden layer's rectified row against W2, plus the bias row. -/
theorem k6_pay1_at (v0 : Vec Ideal S10000x64 .f32) (v3 : Vec Ideal S64x32 .f32) (v6 : Vec Ideal S1x32 .f32)
    (v13 : Vec Ideal S32x2 .f32) (v16 : Vec Ideal S1x2 .f32) (y : Fin 10000) (c : Fin 2) :
    k6_pay1 (F := Ideal) v0 v3 v6 v13 v16 (ix2 y c)
      = (∑ j : Fin 32, max ((∑ k : Fin 64, v0 (ix2 y k) * v3 (ix2 k j)) + v6 (ix2 0 j)) 0 * v13 (ix2 j c)) + v16 (ix2 0 c) := by
  unfold k6_pay1
  simp only [shapeCast_self]
  show matmul (F := Ideal) dot_S10000x32_S32x2_S10000x2_1_0_0_1_n_n none _ _ _ (ix2 y c)
      + broadcastTo S10000x2 v16 broadcasts_S1x2_S10000x2 (ix2 y c) = _
  rw [mm_32_2, bcastRow2_apply]
  refine congrArg (· + v16 (ix2 0 c)) (Finset.sum_congr rfl fun j _ => ?_)
  refine congrArg (· * v13 (ix2 j c)) ?_
  show max (matmul (F := Ideal) dot_S10000x64_S64x32_S10000x32_1_0_0_1_n_n none _ _ _ (ix2 y j)
      + broadcastTo S10000x32 v6 broadcasts_S1x32_S10000x32 (ix2 y j)) (Ideal.ofBits .f32 0x00000000#32) = _
  rw [mm_64_32, bcastRow32_apply, Ideal.ofBits_zero_f32]
  rfl

end Cert.Bridge.Payload

end
-- ==== Proof.BlocksLin.lean ====
/-
  The two linear projections (regions 0 and 3 of the idealized kernel), from blocks to whole arrays. Each grid point
  takes ten thousand rows of `x`, the whole weight matrix and the whole bias row, and writes the same ten thousand rows of
  `x · W + b`. A matrix product into a zero accumulator is, entry by entry, the plain sum over the shared coordinate, so an
  entry of the output block depends on one row of `x` only; the row blocks are disjoint and tile the output, hence after the
  region the output array IS `x · W + b` of the arrays the region found — whatever those arrays are.
-/
import proofs.«151397_j43499428774652_2_alg».proof.Proof.Gen.KernelIdeal.Frame
import proofs.«151397_j43499428774652_2_alg».proof.Proof.PayloadAt
import Idealize.ShloMosaic.Lib.ValueIdx
import Idealize.ShloMosaic.Lib.Pipeline.Value
import Idealize.ShloMosaic.PureOps.Ideal.Laws

set_option maxRecDepth 16384

noncomputable section

namespace Cert.KernelIdeal.BlocksLin

open Idealize.ShloMosaic Idealize.ShloMosaic.TcCoe Idealize.SL.Sem Idealize.ShloMosaic.ValueIdx
open Idealize.ShloMosaic.Pipeline (Dat Cfg Window)
open Cert.KernelIdeal Cert.KernelIdeal.Gen

/- The contents of the TensorCore's buffers when the region is entered: every statement below holds for any such contents. -/
variable (V : (c : Dev nD) → (b : Ref sig .tc) → Buf (Elt Ideal) ((c : Thread nD τ).loc b))

theorem origin2 : (![0, 0] : Fin 2 → Nat) = fun _ => 0 := funext fun a => by fin_cases a <;> rfl

/-! ## Region 0: the rows of `x · W + b`, ten thousand at a time -/

/-- One entry of `x · W + b`: row `r` of `x` against column `c` of `W` (a sum over the 128 shared coordinates), plus the
    bias row's entry `c`. -/
def lin128At (x : S100000x128.Idx → EReal) (W : S128x64.Idx → EReal) (b : S1x64.Idx → EReal) (r : Fin 100000) (c : Fin 64) : EReal :=
  (∑ k : Fin 128, x (ix2 r k) * W (ix2 k c)) + b (ix2 0 c)
/-- The whole array `x · W + b`, index by index. -/
def lin128 (x : S100000x128.Idx → EReal) (W : S128x64.Idx → EReal) (b : S1x64.Idx → EReal) : S100000x64.Idx → EReal :=
  fun i => lin128At x W b (i 0) (i 1)

/-- The printed index maps over the grid: point `t` takes row block `t` of `x` and of the output, and block (0, 0) — the
    whole array — of the weights and of the bias row. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s blocks read where the output's rectangle says: entry (y, c) of the output block is entry
    (10000·t + y, c) of the whole array, and the sum runs over row 10000·t + y of `x`. -/
theorem lin128_block (X : S100000x128.Idx → EReal) (Wt : S128x64.Idx → EReal) (B : S1x64.Idx → EReal)
    (t : Fin cfg0.N) (y : Fin 10000) (cc : Fin 64) :
    (∑ k : Fin 128, X (((cfg0.win 0).blk t).view.emb (ix2 y k)) * Wt (((cfg0.win 1).blk t).view.emb (ix2 k cc)))
      + B (((cfg0.win 2).blk t).view.emb (ix2 (0 : Fin 1) cc))
    = lin128 X Wt B (((cfg0.win 3).blk t).view.emb (ix2 y cc)) := by
  obtain ⟨e00, e01, e10, e11, e20, e21, e30, e31⟩ := blockIdx0 t
  have hN : t.val < 10 := by have h1 := t.isLt; have h10 : cfg0.N = 10 := N_0; omega
  have hy : y.val < 10000 := y.isLt
  have hrow : t.val * 10000 + y.val < 100000 := by omega
  have hout : ((cfg0.win 3).blk t).view.emb (ix2 y cc) = ix2 (⟨t.val * 10000 + y.val, hrow⟩ : Fin 100000) cc := by
    funext a; apply Fin.ext
    match a with
    | ⟨0, _⟩ => show win0_3.index t (0 : Fin 2) * 10000 + 1 * y.val = t.val * 10000 + y.val; omega
    | ⟨1, _⟩ => show win0_3.index t (1 : Fin 2) * 64 + 1 * cc.val = cc.val; omega
  have hx : ∀ k : Fin 128, ((cfg0.win 0).blk t).view.emb (ix2 y k) = ix2 (⟨t.val * 10000 + y.val, hrow⟩ : Fin 100000) k := fun k => by
    funext a; apply Fin.ext
    match a with
    | ⟨0, _⟩ => show win0_0.index t (0 : Fin 2) * 10000 + 1 * y.val = t.val * 10000 + y.val; omega
    | ⟨1, _⟩ => show win0_0.index t (1 : Fin 2) * 128 + 1 * k.val = k.val; omega
  have hw : ∀ k : Fin 128, ((cfg0.win 1).blk t).view.emb (ix2 k cc) = ix2 k cc := fun k => by
    funext a; apply Fin.ext
    match a with
    | ⟨0, _⟩ => show win0_1.index t (0 : Fin 2) * 128 + 1 * k.val = k.val; omega
    | ⟨1, _⟩ => show win0_1.index t (1 : Fin 2) * 64 + 1 * cc.val = cc.val; omega
  have hb : ((cfg0.win 2).blk t).view.emb (ix2 (0 : Fin 1) cc) = ix2 (0 : Fin 1) cc := by
    funext a; apply Fin.ext
    match a with
    | ⟨0, _⟩ => show win0_2.index t (0 : Fin 2) * 1 + 1 * 0 = 0; omega
    | ⟨1, _⟩ => show win0_2.index t (1 : Fin 2) * 64 + 1 * cc.val = cc.val; omega
  rw [hout, hb]
  simp only [hx, hw]
  rfl

/-- What point `t` writes back is block `t` of `x · W + b` of the arrays as the region finds them. -/
theorem flushed0 (c : Dev nD) (t : Fin cfg0.N) :
    (dat0 V c).flushed 3 t = ((cfg0.win 3).blk t).view.read (Elt Ideal) (lin128 (V c main_arg0) (V c main_arg2) (V c main_v4)) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S128x64) origin2, View.ld_unit_zero (S := S1x64) origin2]
  funext j
  obtain ⟨y, cc, rfl⟩ : ∃ (y : Fin 10000) (cc : Fin 64), j = ix2 y cc := ⟨j 0, j 1, eq_ix2 j⟩
  exact (Cert.Bridge.Payload.k0_pay1_at _ _ _ y cc).trans (lin128_block (V c main_arg0) (V c main_arg2) (V c main_v4) t y cc)

/-- An index of the output array is in point `t`'s block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- The ten row blocks tile the output: row `r` lies in the block of point `r / 10000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have h10 : cfg0.N = 10 := N_0
  have ht : (i 0).val / 10000 < cfg0.N := by omega
  obtain ⟨-, -, -, -, -, -, e30, e31⟩ := blockIdx0 ⟨(i 0).val / 10000, ht⟩
  refine ⟨⟨(i 0).val / 10000, ht⟩, flush0_3 _, ?_⟩
  rw [mem_block0]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    have : win0_3.index ⟨(i 0).val / 10000, ht⟩ (0 : Fin 2) = (i 0).val / 10000 := e30
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    omega

/-- After the region the output array holds `x · W + b` of the arrays the region found, everywhere. -/
theorem final0 (c : Dev nD) : (dat0 V c).arrAt 3 cfg0.N = lin128 (V c main_arg0) (V c main_arg2) (V c main_v4) :=
  (dat0 V c).arrAt_eq_of_cover 3 _ (fun t _ => flushed0 V c t) cover0

/-! ## Region 3: the rows of `x · W + b`, ten thousand at a time -/

/-- One entry of `x · W + b`: row `r` of `x` against column `c` of `W` (a sum over the 64 shared coordinates), plus the
    bias row's entry `c`. -/
def lin64At (x : S100000x64.Idx → EReal) (W : S64x64.Idx → EReal) (b : S1x64.Idx → EReal) (r : Fin 100000) (c : Fin 64) : EReal :=
  (∑ k : Fin 64, x (ix2 r k) * W (ix2 k c)) + b (ix2 0 c)
/-- The whole array `x · W + b`, index by index. -/
def lin64 (x : S100000x64.Idx → EReal) (W : S64x64.Idx → EReal) (b : S1x64.Idx → EReal) : S100000x64.Idx → EReal :=
  fun i => lin64At x W b (i 0) (i 1)

/-- The printed index maps over the grid: point `t` takes row block `t` of `x` and of the output, and block (0, 0) — the
    whole array — of the weights and of the bias row. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point `t`'s blocks read where the output's rectangle says: entry (y, c) of the output block is entry
    (10000·t + y, c) of the whole array, and the sum runs over row 10000·t + y of `x`. -/
theorem lin64_block (X : S100000x64.Idx → EReal) (Wt : S64x64.Idx → EReal) (B : S1x64.Idx → EReal)
    (t : Fin cfg3.N) (y : Fin 10000) (cc : Fin 64) :
    (∑ k : Fin 64, X (((cfg3.win 0).blk t).view.emb (ix2 y k)) * Wt (((cfg3.win 1).blk t).view.emb (ix2 k cc)))
      + B (((cfg3.win 2).blk t).view.emb (ix2 (0 : Fin 1) cc))
    = lin64 X Wt B (((cfg3.win 3).blk t).view.emb (ix2 y cc)) := by
  obtain ⟨e00, e01, e10, e11, e20, e21, e30, e31⟩ := blockIdx3 t
  have hN : t.val < 10 := by have h1 := t.isLt; have h10 : cfg3.N = 10 := N_3; omega
  have hy : y.val < 10000 := y.isLt
  have hrow : t.val * 10000 + y.val < 100000 := by omega
  have hout : ((cfg3.win 3).blk t).view.emb (ix2 y cc) = ix2 (⟨t.val * 10000 + y.val, hrow⟩ : Fin 100000) cc := by
    funext a; apply Fin.ext
    match a with
    | ⟨0, _⟩ => show win3_3.index t (0 : Fin 2) * 10000 + 1 * y.val = t.val * 10000 + y.val; omega
    | ⟨1, _⟩ => show win3_3.index t (1 : Fin 2) * 64 + 1 * cc.val = cc.val; omega
  have hx : ∀ k : Fin 64, ((cfg3.win 0).blk t).view.emb (ix2 y k) = ix2 (⟨t.val * 10000 + y.val, hrow⟩ : Fin 100000) k := fun k => by
    funext a; apply Fin.ext
    match a with
    | ⟨0, _⟩ => show win3_0.index t (0 : Fin 2) * 10000 + 1 * y.val = t.val * 10000 + y.val; omega
    | ⟨1, _⟩ => show win3_0.index t (1 : Fin 2) * 64 + 1 * k.val = k.val; omega
  have hw : ∀ k : Fin 64, ((cfg3.win 1).blk t).view.emb (ix2 k cc) = ix2 k cc := fun k => by
    funext a; apply Fin.ext
    match a with
    | ⟨0, _⟩ => show win3_1.index t (0 : Fin 2) * 64 + 1 * k.val = k.val; omega
    | ⟨1, _⟩ => show win3_1.index t (1 : Fin 2) * 64 + 1 * cc.val = cc.val; omega
  have hb : ((cfg3.win 2).blk t).view.emb (ix2 (0 : Fin 1) cc) = ix2 (0 : Fin 1) cc := by
    funext a; apply Fin.ext
    match a with
    | ⟨0, _⟩ => show win3_2.index t (0 : Fin 2) * 1 + 1 * 0 = 0; omega
    | ⟨1, _⟩ => show win3_2.index t (1 : Fin 2) * 64 + 1 * cc.val = cc.val; omega
  rw [hout, hb]
  simp only [hx, hw]
  rfl

/-- What point `t` writes back is block `t` of `x · W + b` of the arrays as the region finds them. -/
theorem flushed3 (c : Dev nD) (t : Fin cfg3.N) :
    (dat3 V c).flushed 3 t = ((cfg3.win 3).blk t).view.read (Elt Ideal) (lin64 (V c main_v45) (V c main_arg6) (V c main_v46)) := by
  show (cfg3.win 3).cut (grid3.coords t) ((dat3 V c).after 3 t) = _
  rw [after3_3]
  unfold out3_3
  rw [View.canon_unit_zero origin2]
  simp only [View.ld_unit_zero (S := S10000x64) origin2, View.ld_unit_zero (S := S64x64) origin2, View.ld_unit_zero (S := S1x64) origin2]
  funext j
  obtain ⟨y, cc, rfl⟩ : ∃ (y : Fin 10000) (cc : Fin 64), j = ix2 y cc := ⟨j 0, j 1, eq_ix2 j⟩
  exact (Cert.Bridge.Payload.k3_pay1_at _ _ _ y cc).trans (lin64_block (V c main_v45) (V c main_arg6) (V c main_v46) t y cc)

/-- An index of the output array is in point `t`'s block iff each coordinate is in the block's range on its axis. -/
theorem mem_block3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v47).slice (win3_3.rect t)).set ↔ _
  rw [View.set_slice_whole, Rect.mem_set_unit]
  exact Iff.rfl

/-- The ten row blocks tile the output: row `r` lies in the block of point `r / 10000`. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have h10 : cfg3.N = 10 := N_3
  have ht : (i 0).val / 10000 < cfg3.N := by omega
  obtain ⟨-, -, -, -, -, -, e30, e31⟩ := blockIdx3 ⟨(i 0).val / 10000, ht⟩
  refine ⟨⟨(i 0).val / 10000, ht⟩, flush3_3 _, ?_⟩
  rw [mem_block3]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    have : win3_3.index ⟨(i 0).val / 10000, ht⟩ (0 : Fin 2) = (i 0).val / 10000 := e30
    omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    omega

/-- After the region the output array holds `x · W + b` of the arrays the region found, everywhere. -/
theorem final3 (c : Dev nD) : (dat3 V c).arrAt 3 cfg3.N = lin64 (V c main_v45) (V c main_arg6) (V c main_v46) :=
  (dat3 V c).arrAt_eq_of_cover 3 _ (fun t _ => flushed3 V c t) cover3

end Cert.KernelIdeal.BlocksLin

end
-- ==== Proof.BlocksAddRelu.lean ====
/-
  The two combining steps (regions 2 and 5 of the idealized kernel), from blocks to whole arrays: each grid point takes the
  same ten thousand rows of the scattered messages and of the projected features and writes `max (a + b) 0` of them, entry
  by entry. The row blocks tile the arrays, so after the region the output array is `max (a + b) 0` of the two arrays the
  region found.
-/
import proofs.«151397_j43499428774652_2_alg».proof.Proof.Gen.KernelIdeal.Frame
import proofs.«151397_j43499428774652_2_alg».proof.Proof.PayloadAt
import Idealize.ShloMosaic.Lib.ValueIdx
import Idealize.ShloMosaic.Lib.Pipeline.Value
import Idealize.ShloMosaic.PureOps.Ideal.Laws

set_option maxRecDepth 16384

noncomputable section

namespace Cert.KernelIdeal.BlocksAddRelu

open Idealize.ShloMosaic Idealize.ShloMosaic.TcCoe Idealize.SL.Sem Idealize.ShloMosaic.ValueIdx
open Idealize.ShloMosaic.Pipeline (Dat Cfg Window)
open Cert.KernelIdeal Cert.KernelIdeal.Gen

/- The contents of the TensorCore's buffers when the region is entered: every statement below holds for any such contents. -/
variable (V : (c : Dev nD) → (b : Ref sig .tc) → Buf (Elt Ideal) ((c : Thread nD τ).loc b))

theorem origin2 : (![0, 0] : Fin 2 → Nat) = fun _ => 0 := funext fun a => by fin_cases a <;> rfl

/-- One entry of `max (a + b) 0`. -/
def addReluAt (a b : S100000x64.Idx → EReal) (r : Fin 100000) (c : Fin 64) : EReal := max (a (ix2 r c) + b (ix2 r c)) 0
/-- The whole array `max (a + b) 0`, index by index. -/
def addRelu (a b : S100000x64.Idx → EReal) : S100000x64.Idx → EReal := fun i => addReluAt a b (i 0) (i 1)

/-! ## Region 2 -/

/-- The printed index maps over the grid: point `t` takes row block `t` of both inputs and of the output. -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry (y, c) of point `t`'s blocks is entry (10000·t + y, c) of the whole arrays, for the inputs and the output alike. -/
theorem addRelu_block2 (A B : S100000x64.Idx → EReal) (t : Fin cfg2.N) (y : Fin 10000) (cc : Fin 64) :
    max (A (((cfg2.win 0).blk t).view.emb (ix2 y cc)) + B (((cfg2.win 1).blk t).view.emb (ix2 y cc))) 0
    = addRelu A B (((cfg2.win 2).blk t).view.emb (ix2 y cc)) := by
  obtain ⟨e00, e01, e10, e11, e20, e21⟩ := blockIdx2 t
  have hN : t.val < 10 := by have h1 := t.isLt; have h10 : cfg2.N = 10 := N_2; omega
  have hy : y.val < 10000 := y.isLt
  have hrow : t.val * 10000 + y.val < 100000 := by omega
  have hout : ((cfg2.win 2).blk t).view.emb (ix2 y cc) = ix2 (⟨t.val * 10000 + y.val, hrow⟩ : Fin 100000) cc := by
    funext a; apply Fin.ext
    match a with
    | ⟨0, _⟩ => show win2_2.index t (0 : Fin 2) * 10000 + 1 * y.val = t.val * 10000 + y.val; omega
    | ⟨1, _⟩ => show win2_2.index t (1 : Fin 2) * 64 + 1 * cc.val = cc.val; omega
  have ha : ((cfg2.win 0).blk t).view.emb (ix2 y cc) = ix2 (⟨t.val * 10000 + y.val, hrow⟩ : Fin 100000) cc := by
    funext a; apply Fin.ext
    match a with
    | ⟨0, _⟩ => show win2_0.index t (0 : Fin 2) * 10000 + 1 * y.val = t.val * 10000 + y.val; omega
    | ⟨1, _⟩ => show win2_0.index t (1 : Fin 2) * 64 + 1 * cc.val = cc.val; omega
  have hb : ((cfg2.win 1).blk t).view.emb (ix2 y cc) = ix2 (⟨t.val * 10000 + y.val, hrow⟩ : Fin 100000) cc := by
    funext a; apply Fin.ext
    match a with
    | ⟨0, _⟩ => show win2_1.index t (0 : Fin 2) * 10000 + 1 * y.val = t.val * 10000 + y.val; omega
    | ⟨1, _⟩ => show win2_1.index t (1 : Fin 2) * 64 + 1 * cc.val = cc.val; omega
  rw [hout, ha, hb]
  rfl

/-- What point `t` writes back is block `t` of `max (a + b) 0` of the arrays as the region finds them. -/
theorem flushed2 (c : Dev nD) (t : Fin cfg2.N) :
    (dat2 V c).flushed 2 t = ((cfg2.win 2).blk t).view.read (Elt Ideal) (addRelu (V c main_v44) (V c main_v5)) := by
  show (cfg2.win 2).cut (grid2.coords t) ((dat2 V c).after 2 t) = _
  rw [after2_2]
  unfold out2_2
  rw [View.canon_unit_zero origin2]
  simp only [View.ld_unit_zero (S := S10000x64) origin2]
  funext j
  obtain ⟨y, cc, rfl⟩ : ∃ (y : Fin 10000) (cc : Fin 64), j = ix2 y cc := ⟨j 0, j 1, eq_ix2 j⟩
  exact (Cert.Bridge.Payload.k2_pay1_at _ _ y cc).trans (addRelu_block2 (V c main_v44) (V c main_v5) t y cc)

/-- An index of the output array is in point `t`'s block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- The ten row blocks tile the output: row `r` lies in the block of point `r / 10000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have h10 : cfg2.N = 10 := N_2
  have ht : (i 0).val / 10000 < cfg2.N := by omega
  obtain ⟨-, -, -, -, e20, e21⟩ := blockIdx2 ⟨(i 0).val / 10000, ht⟩
  refine ⟨⟨(i 0).val / 10000, ht⟩, flush2_2 _, ?_⟩
  rw [mem_block2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    have : win2_2.index ⟨(i 0).val / 10000, ht⟩ (0 : Fin 2) = (i 0).val / 10000 := e20
    omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    omega

/-- After the region the output array holds `max (a + b) 0` of the arrays the region found, everywhere. -/
theorem final2 (c : Dev nD) : (dat2 V c).arrAt 2 cfg2.N = addRelu (V c main_v44) (V c main_v5) :=
  (dat2 V c).arrAt_eq_of_cover 2 _ (fun t _ => flushed2 V c t) cover2

/-! ## Region 5 -/

/-- The printed index maps over the grid: point `t` takes row block `t` of both inputs and of the output. -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Entry (y, c) of point `t`'s blocks is entry (10000·t + y, c) of the whole arrays, for the inputs and the output alike. -/
theorem addRelu_block5 (A B : S100000x64.Idx → EReal) (t : Fin cfg5.N) (y : Fin 10000) (cc : Fin 64) :
    max (A (((cfg5.win 0).blk t).view.emb (ix2 y cc)) + B (((cfg5.win 1).blk t).view.emb (ix2 y cc))) 0
    = addRelu A B (((cfg5.win 2).blk t).view.emb (ix2 y cc)) := by
  obtain ⟨e00, e01, e10, e11, e20, e21⟩ := blockIdx5 t
  have hN : t.val < 10 := by have h1 := t.isLt; have h10 : cfg5.N = 10 := N_5; omega
  have hy : y.val < 10000 := y.isLt
  have hrow : t.val * 10000 + y.val < 100000 := by omega
  have hout : ((cfg5.win 2).blk t).view.emb (ix2 y cc) = ix2 (⟨t.val * 10000 + y.val, hrow⟩ : Fin 100000) cc := by
    funext a; apply Fin.ext
    match a with
    | ⟨0, _⟩ => show win5_2.index t (0 : Fin 2) * 10000 + 1 * y.val = t.val * 10000 + y.val; omega
    | ⟨1, _⟩ => show win5_2.index t (1 : Fin 2) * 64 + 1 * cc.val = cc.val; omega
  have ha : ((cfg5.win 0).blk t).view.emb (ix2 y cc) = ix2 (⟨t.val * 10000 + y.val, hrow⟩ : Fin 100000) cc := by
    funext a; apply Fin.ext
    match a with
    | ⟨0, _⟩ => show win5_0.index t (0 : Fin 2) * 10000 + 1 * y.val = t.val * 10000 + y.val; omega
    | ⟨1, _⟩ => show win5_0.index t (1 : Fin 2) * 64 + 1 * cc.val = cc.val; omega
  have hb : ((cfg5.win 1).blk t).view.emb (ix2 y cc) = ix2 (⟨t.val * 10000 + y.val, hrow⟩ : Fin 100000) cc := by
    funext a; apply Fin.ext
    match a with
    | ⟨0, _⟩ => show win5_1.index t (0 : Fin 2) * 10000 + 1 * y.val = t.val * 10000 + y.val; omega
    | ⟨1, _⟩ => show win5_1.index t (1 : Fin 2) * 64 + 1 * cc.val = cc.val; omega
  rw [hout, ha, hb]
  rfl

/-- What point `t` writes back is block `t` of `max (a + b) 0` of the arrays as the region finds them. -/
theorem flushed5 (c : Dev nD) (t : Fin cfg5.N) :
    (dat5 V c).flushed 2 t = ((cfg5.win 2).blk t).view.read (Elt Ideal) (addRelu (V c main_v86) (V c main_v47)) := by
  show (cfg5.win 2).cut (grid5.coords t) ((dat5 V c).after 2 t) = _
  rw [after5_2]
  unfold out5_2
  rw [View.canon_unit_zero origin2]
  simp only [View.ld_unit_zero (S := S10000x64) origin2]
  funext j
  obtain ⟨y, cc, rfl⟩ : ∃ (y : Fin 10000) (cc : Fin 64), j = ix2 y cc := ⟨j 0, j 1, eq_ix2 j⟩
  exact (Cert.Bridge.Payload.k5_pay1_at _ _ y cc).trans (addRelu_block5 (V c main_v86) (V c main_v47) t y cc)

/-- An index of the output array is in point `t`'s block iff each coordinate is in the block's range on its axis. -/
theorem mem_block5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v87).slice (win5_2.rect t)).set ↔ _
  rw [View.set_slice_whole, Rect.mem_set_unit]
  exact Iff.rfl

/-- The ten row blocks tile the output: row `r` lies in the block of point `r / 10000`. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have h10 : cfg5.N = 10 := N_5
  have ht : (i 0).val / 10000 < cfg5.N := by omega
  obtain ⟨-, -, -, -, e20, e21⟩ := blockIdx5 ⟨(i 0).val / 10000, ht⟩
  refine ⟨⟨(i 0).val / 10000, ht⟩, flush5_2 _, ?_⟩
  rw [mem_block5]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    have : win5_2.index ⟨(i 0).val / 10000, ht⟩ (0 : Fin 2) = (i 0).val / 10000 := e20
    omega
  | ⟨1, _⟩ =>
    show win5_2.index ⟨(i 0).val / 10000, ht⟩ (1 : Fin 2) * 64 ≤ (i 1).val ∧ (i 1).val < win5_2.index ⟨(i 0).val / 10000, ht⟩ (1 : Fin 2) * 64 + 64
    omega

/-- After the region the output array holds `max (a + b) 0` of the arrays the region found, everywhere. -/
theorem final5 (c : Dev nD) : (dat5 V c).arrAt 2 cfg5.N = addRelu (V c main_v86) (V c main_v47) :=
  (dat5 V c).arrAt_eq_of_cover 2 _ (fun t _ => flushed5 V c t) cover5

end Cert.KernelIdeal.BlocksAddRelu

end
-- ==== Proof.BlocksAttn.lean ====
import proofs.«151397_j43499428774652_2_alg».proof.Proof.Gen.KernelIdeal.Frame
import proofs.«151397_j43499428774652_2_alg».proof.Proof.PayloadAt
import Idealize.ShloMosaic.Lib.ValueIdx
import Idealize.ShloMosaic.Lib.Pipeline.Value
import Idealize.ShloMosaic.PureOps.Ideal.Laws

set_option maxRecDepth 16384

noncomputable section

namespace Cert.KernelIdeal.BlocksAttn

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The zero offsets of a whole-buffer access. -/
theorem hz2 : (![0, 0] : Fin 2 → Nat) = fun _ => 0 := funext fun a => by fin_cases a <;> rfl

/-- One attention logit: row `e` of the source features against column `h` of `As`, plus row `e` of the destination
    features against column `h` of `Ad`, plus the bias' entry `h`. -/
def attnAt (s d : S1600000x64.Idx → EReal) (As Ad : S64x2.Idx → EReal) (a : S1x2.Idx → EReal) (e : Fin 1600000) (h : Fin 2) : EReal :=
  ((∑ k : Fin 64, s (ix2 e k) * As (ix2 k h)) + (∑ k : Fin 64, d (ix2 e k) * Ad (ix2 k h))) + a (ix2 0 h)
/-- The array of attention logits, one per edge and head. -/
def attn (s d : S1600000x64.Idx → EReal) (As Ad : S64x2.Idx → EReal) (a : S1x2.Idx → EReal) : S1600000x2.Idx → EReal :=
  fun i => attnAt s d As Ad a (i 0) (i 1)

/-! ## Region 1: the attention logits of one layer -/

/-- The block indices of region 1's windows at point `t`: the two feature windows and the output move down the rows with
    `t`; the two halves of `A` and the bias stay whole. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t`'s blocks, read where the output's rectangle says: rows `10000·t + y` of the two feature arrays, all of
    `As`, `Ad` and the bias. -/
theorem attn_block1 (S D : S1600000x64.Idx → EReal) (As Ad : S64x2.Idx → EReal) (A : S1x2.Idx → EReal)
    (t : Fin cfg1.N) (y : Fin 10000) (h : Fin 2) :
    ((∑ k : Fin 64, S (((cfg1.win 0).blk t).view.emb (ix2 y k)) * As (((cfg1.win 2).blk t).view.emb (ix2 k h)))
        + (∑ k : Fin 64, D (((cfg1.win 1).blk t).view.emb (ix2 y k)) * Ad (((cfg1.win 3).blk t).view.emb (ix2 k h))))
      + A (((cfg1.win 4).blk t).view.emb (ix2 (0 : Fin 1) h))
    = attn S D As Ad A (((cfg1.win 5).blk t).view.emb (ix2 y h)) := by
  obtain ⟨e00, e01, e10, e11, e20, e21, e30, e31, e40, e41, e50, e51⟩ := idx1 t
  have hN : t.val < 160 := by have h1 := t.isLt; have h160 : cfg1.N = 160 := N_1; omega
  have hy : y.val < 10000 := y.isLt
  have hrow : t.val * 10000 + y.val < 1600000 := by omega
  have hemb : ((cfg1.win 5).blk t).view.emb (ix2 y h) = ix2 (⟨t.val * 10000 + y.val, hrow⟩ : Fin 1600000) h := by
    funext a; apply Fin.ext
    match a with
    | ⟨0, _⟩ => show win1_5.index t (0 : Fin 2) * 10000 + 1 * y.val = t.val * 10000 + y.val; omega
    | ⟨1, _⟩ => show win1_5.index t (1 : Fin 2) * 2 + 1 * h.val = h.val; omega
  have h0 : ∀ k : Fin 64, ((cfg1.win 0).blk t).view.emb (ix2 y k) = ix2 (⟨t.val * 10000 + y.val, hrow⟩ : Fin 1600000) k := fun k => by
    funext a; apply Fin.ext
    match a with
    | ⟨0, _⟩ => show win1_0.index t (0 : Fin 2) * 10000 + 1 * y.val = t.val * 10000 + y.val; omega
    | ⟨1, _⟩ => show win1_0.index t (1 : Fin 2) * 64 + 1 * k.val = k.val; omega
  have h1 : ∀ k : Fin 64, ((cfg1.win 1).blk t).view.emb (ix2 y k) = ix2 (⟨t.val * 10000 + y.val, hrow⟩ : Fin 1600000) k := fun k => by
    funext a; apply Fin.ext
    match a with
    | ⟨0, _⟩ => show win1_1.index t (0 : Fin 2) * 10000 + 1 * y.val = t.val * 10000 + y.val; omega
    | ⟨1, _⟩ => show win1_1.index t (1 : Fin 2) * 64 + 1 * k.val = k.val; omega
  have h2 : ∀ k : Fin 64, ((cfg1.win 2).blk t).view.emb (ix2 k h) = ix2 k h := fun k => by
    funext a; apply Fin.ext
    match a with
    | ⟨0, _⟩ => show win1_2.index t (0 : Fin 2) * 64 + 1 * k.val = k.val; omega
    | ⟨1, _⟩ => show win1_2.index t (1 : Fin 2) * 2 + 1 * h.val = h.val; omega
  have h3 : ∀ k : Fin 64, ((cfg1.win 3).blk t).view.emb (ix2 k h) = ix2 k h := fun k => by
    funext a; apply Fin.ext
    match a with
    | ⟨0, _⟩ => show win1_3.index t (0 : Fin 2) * 64 + 1 * k.val = k.val; omega
    | ⟨1, _⟩ => show win1_3.index t (1 : Fin 2) * 2 + 1 * h.val = h.val; omega
  have h4 : ((cfg1.win 4).blk t).view.emb (ix2 (0 : Fin 1) h) = ix2 (0 : Fin 1) h := by
    funext a; apply Fin.ext
    match a with
    | ⟨0, _⟩ => show win1_4.index t (0 : Fin 2) * 1 + 1 * 0 = 0; omega
    | ⟨1, _⟩ => show win1_4.index t (1 : Fin 2) * 2 + 1 * h.val = h.val; omega
  rw [hemb, h4]
  simp only [h0, h1, h2, h3]
  rfl

/-- What point `t` writes back: the attention logits' array read through the output block's rectangle. -/
theorem flushed1 (c : Dev nD) (t : Fin cfg1.N) :
    (dat1 V c).flushed 5 t = ((cfg1.win 5).blk t).view.read (Elt Ideal) (attn (V c main_v12) (V c main_v19) (V c main_v20) (V c main_v21) (V c main_v22)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x2) hz2, View.ld_unit_zero (S := S1x2) hz2]
  funext j
  obtain ⟨y, h, rfl⟩ : ∃ (y : Fin 10000) (h : Fin 2), j = ix2 y h := ⟨j 0, j 1, eq_ix2 j⟩
  exact (Cert.Bridge.Payload.k1_pay1_at _ _ _ _ _ y h).trans (attn_block1 (V c main_v12) (V c main_v19) (V c main_v20) (V c main_v21) (V c main_v22) t y h)

/-- An index of the output array lies in point `t`'s block when each coordinate lies in the block's span. -/
theorem mem_blk1 (t : Fin cfg1.N) (i : S1600000x2.Idx) :
    i ∈ ((cfg1.win 5).blk t).view.set ↔ ∀ a : Fin 2, win1_5.index t a * S10000x2.size a ≤ (i a).val ∧ (i a).val < win1_5.index t a * S10000x2.size a + S10000x2.size a := by
  show i ∈ ((View.whole main_v23).slice (win1_5.rect t)).set ↔ _
  rw [View.set_slice_whole, Rect.mem_set_unit]
  exact Iff.rfl

/-- Every index of the output array lies in the block of the point its row falls in. -/
theorem cover1 (i : S1600000x2.Idx) : ∃ t : Fin cfg1.N, (cfg1.win 5).flush t = true ∧ i ∈ ((cfg1.win 5).blk t).view.set := by
  have hi0 : (i 0).val < 1600000 := (i 0).isLt
  have hi1 : (i 1).val < 2 := (i 1).isLt
  have h160 : cfg1.N = 160 := N_1
  have ht : (i 0).val / 10000 < cfg1.N := by omega
  obtain ⟨-, -, -, -, -, -, -, -, -, -, e50, e51⟩ := idx1 ⟨(i 0).val / 10000, ht⟩
  refine ⟨⟨(i 0).val / 10000, ht⟩, flush1_5 _, ?_⟩
  rw [mem_blk1]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    have : win1_5.index ⟨(i 0).val / 10000, ht⟩ (0 : Fin 2) = (i 0).val / 10000 := e50
    omega
  | ⟨1, _⟩ =>
    show win1_5.index ⟨(i 0).val / 10000, ht⟩ (1 : Fin 2) * 2 ≤ (i 1).val ∧ (i 1).val < win1_5.index ⟨(i 0).val / 10000, ht⟩ (1 : Fin 2) * 2 + 2
    omega

/-- After the last point the output array holds the attention logits of the region's operands. -/
theorem final1 (c : Dev nD) : (dat1 V c).arrAt 5 cfg1.N = attn (V c main_v12) (V c main_v19) (V c main_v20) (V c main_v21) (V c main_v22) :=
  (dat1 V c).arrAt_eq_of_cover 5 _ (fun t _ => flushed1 V c t) cover1

/-! ## Region 4: the attention logits of one layer -/

/-- The block indices of region 4's windows at point `t`: the two feature windows and the output move down the rows with
    `t`; the two halves of `A` and the bias stay whole. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Point `t`'s blocks, read where the output's rectangle says: rows `10000·t + y` of the two feature arrays, all of
    `As`, `Ad` and the bias. -/
theorem attn_block4 (S D : S1600000x64.Idx → EReal) (As Ad : S64x2.Idx → EReal) (A : S1x2.Idx → EReal)
    (t : Fin cfg4.N) (y : Fin 10000) (h : Fin 2) :
    ((∑ k : Fin 64, S (((cfg4.win 0).blk t).view.emb (ix2 y k)) * As (((cfg4.win 2).blk t).view.emb (ix2 k h)))
        + (∑ k : Fin 64, D (((cfg4.win 1).blk t).view.emb (ix2 y k)) * Ad (((cfg4.win 3).blk t).view.emb (ix2 k h))))
      + A (((cfg4.win 4).blk t).view.emb (ix2 (0 : Fin 1) h))
    = attn S D As Ad A (((cfg4.win 5).blk t).view.emb (ix2 y h)) := by
  obtain ⟨e00, e01, e10, e11, e20, e21, e30, e31, e40, e41, e50, e51⟩ := idx4 t
  have hN : t.val < 160 := by have h1 := t.isLt; have h160 : cfg4.N = 160 := N_4; omega
  have hy : y.val < 10000 := y.isLt
  have hrow : t.val * 10000 + y.val < 1600000 := by omega
  have hemb : ((cfg4.win 5).blk t).view.emb (ix2 y h) = ix2 (⟨t.val * 10000 + y.val, hrow⟩ : Fin 1600000) h := by
    funext a; apply Fin.ext
    match a with
    | ⟨0, _⟩ => show win4_5.index t (0 : Fin 2) * 10000 + 1 * y.val = t.val * 10000 + y.val; omega
    | ⟨1, _⟩ => show win4_5.index t (1 : Fin 2) * 2 + 1 * h.val = h.val; omega
  have h0 : ∀ k : Fin 64, ((cfg4.win 0).blk t).view.emb (ix2 y k) = ix2 (⟨t.val * 10000 + y.val, hrow⟩ : Fin 1600000) k := fun k => by
    funext a; apply Fin.ext
    match a with
    | ⟨0, _⟩ => show win4_0.index t (0 : Fin 2) * 10000 + 1 * y.val = t.val * 10000 + y.val; omega
    | ⟨1, _⟩ => show win4_0.index t (1 : Fin 2) * 64 + 1 * k.val = k.val; omega
  have h1 : ∀ k : Fin 64, ((cfg4.win 1).blk t).view.emb (ix2 y k) = ix2 (⟨t.val * 10000 + y.val, hrow⟩ : Fin 1600000) k := fun k => by
    funext a; apply Fin.ext
    match a with
    | ⟨0, _⟩ => show win4_1.index t (0 : Fin 2) * 10000 + 1 * y.val = t.val * 10000 + y.val; omega
    | ⟨1, _⟩ => show win4_1.index t (1 : Fin 2) * 64 + 1 * k.val = k.val; omega
  have h2 : ∀ k : Fin 64, ((cfg4.win 2).blk t).view.emb (ix2 k h) = ix2 k h := fun k => by
    funext a; apply Fin.ext
    match a with
    | ⟨0, _⟩ => show win4_2.index t (0 : Fin 2) * 64 + 1 * k.val = k.val; omega
    | ⟨1, _⟩ => show win4_2.index t (1 : Fin 2) * 2 + 1 * h.val = h.val; omega
  have h3 : ∀ k : Fin 64, ((cfg4.win 3).blk t).view.emb (ix2 k h) = ix2 k h := fun k => by
    funext a; apply Fin.ext
    match a with
    | ⟨0, _⟩ => show win4_3.index t (0 : Fin 2) * 64 + 1 * k.val = k.val; omega
    | ⟨1, _⟩ => show win4_3.index t (1 : Fin 2) * 2 + 1 * h.val = h.val; omega
  have h4 : ((cfg4.win 4).blk t).view.emb (ix2 (0 : Fin 1) h) = ix2 (0 : Fin 1) h := by
    funext a; apply Fin.ext
    match a with
    | ⟨0, _⟩ => show win4_4.index t (0 : Fin 2) * 1 + 1 * 0 = 0; omega
    | ⟨1, _⟩ => show win4_4.index t (1 : Fin 2) * 2 + 1 * h.val = h.val; omega
  rw [hemb, h4]
  simp only [h0, h1, h2, h3]
  rfl

/-- What point `t` writes back: the attention logits' array read through the output block's rectangle. -/
theorem flushed4 (c : Dev nD) (t : Fin cfg4.N) :
    (dat4 V c).flushed 5 t = ((cfg4.win 5).blk t).view.read (Elt Ideal) (attn (V c main_v54) (V c main_v61) (V c main_v62) (V c main_v63) (V c main_v64)) := by
  show (cfg4.win 5).cut (grid4.coords t) ((dat4 V c).after 5 t) = _
  rw [after4_5]
  unfold out4_5
  rw [View.canon_unit_zero hz2]
  simp only [View.ld_unit_zero (S := S10000x64) hz2, View.ld_unit_zero (S := S64x2) hz2, View.ld_unit_zero (S := S1x2) hz2]
  funext j
  obtain ⟨y, h, rfl⟩ : ∃ (y : Fin 10000) (h : Fin 2), j = ix2 y h := ⟨j 0, j 1, eq_ix2 j⟩
  exact (Cert.Bridge.Payload.k4_pay1_at _ _ _ _ _ y h).trans (attn_block4 (V c main_v54) (V c main_v61) (V c main_v62) (V c main_v63) (V c main_v64) t y h)

/-- An index of the output array lies in point `t`'s block when each coordinate lies in the block's span. -/
theorem mem_blk4 (t : Fin cfg4.N) (i : S1600000x2.Idx) :
    i ∈ ((cfg4.win 5).blk t).view.set ↔ ∀ a : Fin 2, win4_5.index t a * S10000x2.size a ≤ (i a).val ∧ (i a).val < win4_5.index t a * S10000x2.size a + S10000x2.size a := by
  show i ∈ ((View.whole main_v65).slice (win4_5.rect t)).set ↔ _
  rw [View.set_slice_whole, Rect.mem_set_unit]
  exact Iff.rfl

/-- Every index of the output array lies in the block of the point its row falls in. -/
theorem cover4 (i : S1600000x2.Idx) : ∃ t : Fin cfg4.N, (cfg4.win 5).flush t = true ∧ i ∈ ((cfg4.win 5).blk t).view.set := by
  have hi0 : (i 0).val < 1600000 := (i 0).isLt
  have hi1 : (i 1).val < 2 := (i 1).isLt
  have h160 : cfg4.N = 160 := N_4
  have ht : (i 0).val / 10000 < cfg4.N := by omega
  obtain ⟨-, -, -, -, -, -, -, -, -, -, e50, e51⟩ := idx4 ⟨(i 0).val / 10000, ht⟩
  refine ⟨⟨(i 0).val / 10000, ht⟩, flush4_5 _, ?_⟩
  rw [mem_blk4]
  intro a
  match a with
  | ⟨0, _⟩ =>
    show win4_5.index ⟨(i 0).val / 10000, ht⟩ (0 : Fin 2) * 10000 ≤ (i 0).val ∧ (i 0).val < win4_5.index ⟨(i 0).val / 10000, ht⟩ (0 : Fin 2) * 10000 + 10000
    have : win4_5.index ⟨(i 0).val / 10000, ht⟩ (0 : Fin 2) = (i 0).val / 10000 := e50
    omega
  | ⟨1, _⟩ =>
    show win4_5.index ⟨(i 0).val / 10000, ht⟩ (1 : Fin 2) * 2 ≤ (i 1).val ∧ (i 1).val < win4_5.index ⟨(i 0).val / 10000, ht⟩ (1 : Fin 2) * 2 + 2
    omega

/-- After the last point the output array holds the attention logits of the region's operands. -/
theorem final4 (c : Dev nD) : (dat4 V c).arrAt 5 cfg4.N = attn (V c main_v54) (V c main_v61) (V c main_v62) (V c main_v63) (V c main_v64) :=
  (dat4 V c).arrAt_eq_of_cover 5 _ (fun t _ => flushed4 V c t) cover4

end Cert.KernelIdeal.BlocksAttn

end
-- ==== Proof.BlocksCls.lean ====
import proofs.«151397_j43499428774652_2_alg».proof.Proof.Gen.KernelIdeal.Frame
import proofs.«151397_j43499428774652_2_alg».proof.Proof.PayloadAt
import Idealize.ShloMosaic.Lib.ValueIdx
import Idealize.ShloMosaic.Lib.Pipeline.Value
import Idealize.ShloMosaic.PureOps.Ideal.Laws

set_option maxRecDepth 16384

noncomputable section

namespace Cert.KernelIdeal.BlocksCls

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The zero offsets of a whole-buffer access. -/
theorem hz2 : (![0, 0] : Fin 2 → Nat) = fun _ => 0 := funext fun a => by fin_cases a <;> rfl

/-- One classifier output: row `r` of `x` through the hidden layer (against `W1`, plus `b1`, rectified), then against
    column `c` of `W2`, plus the bias' entry `c`. -/
def clsAt (x : S100000x64.Idx → EReal) (W1 : S64x32.Idx → EReal) (b1 : S1x32.Idx → EReal) (W2 : S32x2.Idx → EReal)
    (b2 : S1x2.Idx → EReal) (r : Fin 100000) (c : Fin 2) : EReal :=
  (∑ j : Fin 32, max ((∑ k : Fin 64, x (ix2 r k) * W1 (ix2 k j)) + b1 (ix2 0 j)) 0 * W2 (ix2 j c)) + b2 (ix2 0 c)
/-- The array of classifier outputs, one per node and class. -/
def cls (x : S100000x64.Idx → EReal) (W1 : S64x32.Idx → EReal) (b1 : S1x32.Idx → EReal) (W2 : S32x2.Idx → EReal)
    (b2 : S1x2.Idx → EReal) : S100000x2.Idx → EReal :=
  fun i => clsAt x W1 b1 W2 b2 (i 0) (i 1)

/-! ## Region 6: the classifier -/

/-- The block indices of region 6's windows at point `t`: the feature window and the output move down the rows with `t`;
    the two weight matrices and the two biases stay whole. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Point `t`'s blocks, read where the output's rectangle says: rows `10000·t + y` of `X`, all of the weights and
    biases. -/
theorem cls_block (X : S100000x64.Idx → EReal) (W1 : S64x32.Idx → EReal) (B1 : S1x32.Idx → EReal) (W2 : S32x2.Idx → EReal)
    (B2 : S1x2.Idx → EReal) (t : Fin cfg6.N) (y : Fin 10000) (cc : Fin 2) :
    (∑ j : Fin 32, max ((∑ k : Fin 64, X (((cfg6.win 0).blk t).view.emb (ix2 y k)) * W1 (((cfg6.win 1).blk t).view.emb (ix2 k j)))
          + B1 (((cfg6.win 2).blk t).view.emb (ix2 (0 : Fin 1) j))) 0 * W2 (((cfg6.win 3).blk t).view.emb (ix2 j cc)))
      + B2 (((cfg6.win 4).blk t).view.emb (ix2 (0 : Fin 1) cc))
    = cls X W1 B1 W2 B2 (((cfg6.win 5).blk t).view.emb (ix2 y cc)) := by
  obtain ⟨e00, e01, e10, e11, e20, e21, e30, e31, e40, e41, e50, e51⟩ := idx6 t
  have hN : t.val < 10 := by have h1 := t.isLt; have h10 : cfg6.N = 10 := N_6; omega
  have hy : y.val < 10000 := y.isLt
  have hrow : t.val * 10000 + y.val < 100000 := by omega
  have hemb : ((cfg6.win 5).blk t).view.emb (ix2 y cc) = ix2 (⟨t.val * 10000 + y.val, hrow⟩ : Fin 100000) cc := by
    funext a; apply Fin.ext
    match a with
    | ⟨0, _⟩ => show win6_5.index t (0 : Fin 2) * 10000 + 1 * y.val = t.val * 10000 + y.val; omega
    | ⟨1, _⟩ => show win6_5.index t (1 : Fin 2) * 2 + 1 * cc.val = cc.val; omega
  have h0 : ∀ k : Fin 64, ((cfg6.win 0).blk t).view.emb (ix2 y k) = ix2 (⟨t.val * 10000 + y.val, hrow⟩ : Fin 100000) k := fun k => by
    funext a; apply Fin.ext
    match a with
    | ⟨0, _⟩ => show win6_0.index t (0 : Fin 2) * 10000 + 1 * y.val = t.val * 10000 + y.val; omega
    | ⟨1, _⟩ => show win6_0.index t (1 : Fin 2) * 64 + 1 * k.val = k.val; omega
  have h1 : ∀ (k : Fin 64) (j : Fin 32), ((cfg6.win 1).blk t).view.emb (ix2 k j) = ix2 k j := fun k j => by
    funext a; apply Fin.ext
    match a with
    | ⟨0, _⟩ => show win6_1.index t (0 : Fin 2) * 64 + 1 * k.val = k.val; omega
    | ⟨1, _⟩ => show win6_1.index t (1 : Fin 2) * 32 + 1 * j.val = j.val; omega
  have h2 : ∀ j : Fin 32, ((cfg6.win 2).blk t).view.emb (ix2 (0 : Fin 1) j) = ix2 (0 : Fin 1) j := fun j => by
    funext a; apply Fin.ext
    match a with
    | ⟨0, _⟩ => show win6_2.index t (0 : Fin 2) * 1 + 1 * 0 = 0; omega
    | ⟨1, _⟩ => show win6_2.index t (1 : Fin 2) * 32 + 1 * j.val = j.val; omega
  have h3 : ∀ j : Fin 32, ((cfg6.win 3).blk t).view.emb (ix2 j cc) = ix2 j cc := fun j => by
    funext a; apply Fin.ext
    match a with
    | ⟨0, _⟩ => show win6_3.index t (0 : Fin 2) * 32 + 1 * j.val = j.val; omega
    | ⟨1, _⟩ => show win6_3.index t (1 : Fin 2) * 2 + 1 * cc.val = cc.val; omega
  have h4 : ((cfg6.win 4).blk t).view.emb (ix2 (0 : Fin 1) cc) = ix2 (0 : Fin 1) cc := by
    funext a; apply Fin.ext
    match a with
    | ⟨0, _⟩ => show win6_4.index t (0 : Fin 2) * 1 + 1 * 0 = 0; omega
    | ⟨1, _⟩ => show win6_4.index t (1 : Fin 2) * 2 + 1 * cc.val = cc.val; omega
  rw [hemb, h4]
  simp only [h0, h1, h2, h3]
  rfl

/-- What point `t` writes back: the classifier's array read through the output block's rectangle. -/
theorem flushed6 (c : Dev nD) (t : Fin cfg6.N) :
    (dat6 V c).flushed 5 t = ((cfg6.win 5).blk t).view.read (Elt Ideal) (cls (V c main_v87) (V c main_arg10) (V c main_v88) (V c main_arg12) (V c main_v89)) := by
  show (cfg6.win 5).cut (grid6.coords t) ((dat6 V c).after 5 t) = _
  rw [after6_5]
  unfold out6_5
  rw [View.canon_unit_zero hz2]
  simp only [View.ld_unit_zero (S := S10000x64) hz2, View.ld_unit_zero (S := S64x32) hz2, View.ld_unit_zero (S := S1x32) hz2,
    View.ld_unit_zero (S := S32x2) hz2, View.ld_unit_zero (S := S1x2) hz2]
  funext j
  obtain ⟨y, cc, rfl⟩ : ∃ (y : Fin 10000) (cc : Fin 2), j = ix2 y cc := ⟨j 0, j 1, eq_ix2 j⟩
  exact (Cert.Bridge.Payload.k6_pay1_at _ _ _ _ _ y cc).trans (cls_block (V c main_v87) (V c main_arg10) (V c main_v88) (V c main_arg12) (V c main_v89) t y cc)

/-- An index of the output array lies in point `t`'s block when each coordinate lies in the block's span. -/
theorem mem_blk6 (t : Fin cfg6.N) (i : S100000x2.Idx) :
    i ∈ ((cfg6.win 5).blk t).view.set ↔ ∀ a : Fin 2, win6_5.index t a * S10000x2.size a ≤ (i a).val ∧ (i a).val < win6_5.index t a * S10000x2.size a + S10000x2.size a := by
  show i ∈ ((View.whole main_v90).slice (win6_5.rect t)).set ↔ _
  rw [View.set_slice_whole, Rect.mem_set_unit]
  exact Iff.rfl

/-- Every index of the output array lies in the block of the point its row falls in. -/
theorem cover6 (i : S100000x2.Idx) : ∃ t : Fin cfg6.N, (cfg6.win 5).flush t = true ∧ i ∈ ((cfg6.win 5).blk t).view.set := by
  have hi0 : (i 0).val < 100000 := (i 0).isLt
  have hi1 : (i 1).val < 2 := (i 1).isLt
  have h10 : cfg6.N = 10 := N_6
  have ht : (i 0).val / 10000 < cfg6.N := by omega
  obtain ⟨-, -, -, -, -, -, -, -, -, -, e50, e51⟩ := idx6 ⟨(i 0).val / 10000, ht⟩
  refine ⟨⟨(i 0).val / 10000, ht⟩, flush6_5 _, ?_⟩
  rw [mem_blk6]
  intro a
  match a with
  | ⟨0, _⟩ =>
    show win6_5.index ⟨(i 0).val / 10000, ht⟩ (0 : Fin 2) * 10000 ≤ (i 0).val ∧ (i 0).val < win6_5.index ⟨(i 0).val / 10000, ht⟩ (0 : Fin 2) * 10000 + 10000
    have : win6_5.index ⟨(i 0).val / 10000, ht⟩ (0 : Fin 2) = (i 0).val / 10000 := e50
    omega
  | ⟨1, _⟩ =>
    show win6_5.index ⟨(i 0).val / 10000, ht⟩ (1 : Fin 2) * 2 ≤ (i 1).val ∧ (i 1).val < win6_5.index ⟨(i 0).val / 10000, ht⟩ (1 : Fin 2) * 2 + 2
    omega

/-- After the last point the output array holds the classifier's outputs of the region's operands. -/
theorem final6 (c : Dev nD) : (dat6 V c).arrAt 5 cfg6.N = cls (V c main_v87) (V c main_arg10) (V c main_v88) (V c main_arg12) (V c main_v89) :=
  (dat6 V c).arrAt_eq_of_cover 5 _ (fun t _ => flushed6 V c t) cover6

end Cert.KernelIdeal.BlocksCls

end
-- ==== Proof.StageAt.lean ====
import proofs.«151397_j43499428774652_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Stage

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- The product of an [100000, 128] and a [128, 64] array, read at (r, c): the sum over the contracted coordinate k of the
    left operand at (r, k) times the right operand at (k, c). -/
theorem dg_128_64 {φ₁ φ₂ : FTy} (a : FVec Ideal S100000x128 φ₁) (b : FVec Ideal S128x64 φ₂) (r : Fin 100000) (c : Fin 64) :
    Host.dotGeneral (F := Ideal) dot_S100000x128_S128x64_S100000x64_1_0_0_1_n_n none a b (ix2 r c) = ∑ k : Fin 128, a (ix2 r k) * b (ix2 k c) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r c) ((ValueIdx.contrEquiv1 dot_S100000x128_S128x64_S100000x64_1_0_0_1_n_n 128 rfl rfl).symm k) = ix2 r k := funext fun d => Fin.ext (by
    match d with
    | ⟨0, _⟩ =>
      show (dot_S100000x128_S128x64_S100000x64_1_0_0_1_n_n.lhsIdx (ix2 r c) _ 0).val = r.val
      unfold DotDims.lhsIdx
      rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
      rfl
    | ⟨1, _⟩ => exact (dot_S100000x128_S128x64_S100000x64_1_0_0_1_n_n.lhsIdx_val_of_single rfl (ix2 r c) _).trans hk)
  have er : dot_S100000x128_S128x64_S100000x64_1_0_0_1_n_n.rhsIdx (ix2 r c) ((ValueIdx.contrEquiv1 dot_S100000x128_S128x64_S100000x64_1_0_0_1_n_n 128 rfl rfl).symm k) = ix2 k c := funext fun d => Fin.ext (by
    match d with
    | ⟨0, _⟩ => exact (dot_S100000x128_S128x64_S100000x64_1_0_0_1_n_n.rhsIdx_val_of_single rfl (ix2 r c) _).trans hk
    | ⟨1, _⟩ =>
      show (dot_S100000x128_S128x64_S100000x64_1_0_0_1_n_n.rhsIdx (ix2 r c) _ 1).val = c.val
      unfold DotDims.rhsIdx
      rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
      rfl)
  rw [el, er]

/-- The product of an [100000, 64] and a [64, 64] array, read at (r, c): the sum over the contracted coordinate k of the
    left operand at (r, k) times the right operand at (k, c). -/
theorem dg_64_64 {φ₁ φ₂ : FTy} (a : FVec Ideal S100000x64 φ₁) (b : FVec Ideal S64x64 φ₂) (r : Fin 100000) (c : Fin 64) :
    Host.dotGeneral (F := Ideal) dot_S100000x64_S64x64_S100000x64_1_0_0_1_n_n none a b (ix2 r c) = ∑ k : Fin 64, a (ix2 r k) * b (ix2 k c) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r c) ((ValueIdx.contrEquiv1 dot_S100000x64_S64x64_S100000x64_1_0_0_1_n_n 64 rfl rfl).symm k) = ix2 r k := funext fun d => Fin.ext (by
    match d with
    | ⟨0, _⟩ =>
      show (dot_S100000x64_S64x64_S100000x64_1_0_0_1_n_n.lhsIdx (ix2 r c) _ 0).val = r.val
      unfold DotDims.lhsIdx
      rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
      rfl
    | ⟨1, _⟩ => exact (dot_S100000x64_S64x64_S100000x64_1_0_0_1_n_n.lhsIdx_val_of_single rfl (ix2 r c) _).trans hk)
  have er : dot_S100000x64_S64x64_S100000x64_1_0_0_1_n_n.rhsIdx (ix2 r c) ((ValueIdx.contrEquiv1 dot_S100000x64_S64x64_S100000x64_1_0_0_1_n_n 64 rfl rfl).symm k) = ix2 k c := funext fun d => Fin.ext (by
    match d with
    | ⟨0, _⟩ => exact (dot_S100000x64_S64x64_S100000x64_1_0_0_1_n_n.rhsIdx_val_of_single rfl (ix2 r c) _).trans hk
    | ⟨1, _⟩ =>
      show (dot_S100000x64_S64x64_S100000x64_1_0_0_1_n_n.rhsIdx (ix2 r c) _ 1).val = c.val
      unfold DotDims.rhsIdx
      rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
      rfl)
  rw [el, er]

/-- The product of an [1600000, 64] and a [64, 2] array, read at (r, c): the sum over the contracted coordinate k of the
    left operand at (r, k) times the right operand at (k, c). -/
theorem dg_64_2 {φ₁ φ₂ : FTy} (a : FVec Ideal S1600000x64 φ₁) (b : FVec Ideal S64x2 φ₂) (r : Fin 1600000) (c : Fin 2) :
    Host.dotGeneral (F := Ideal) dot_S1600000x64_S64x2_S1600000x2_1_0_0_1_n_n none a b (ix2 r c) = ∑ k : Fin 64, a (ix2 r k) * b (ix2 k c) := by
  simp only [Host.dotGeneral]
  rw [Ideal.dotGeneral_apply, ← Equiv.sum_comp (ValueIdx.contrEquiv1 dot_S1600000x64_S64x2_S1600000x2_1_0_0_1_n_n 64 rfl rfl).symm]
  refine Finset.sum_congr rfl fun k _ => ?_
  have hk := ValueIdx.contrEquiv1_symm_val dot_S1600000x64_S64x2_S1600000x2_1_0_0_1_n_n 64 rfl rfl k
  have el : dot_S1600000x64_S64x2_S1600000x2_1_0_0_1_n_n.lhsIdx (ix2 r c) ((ValueIdx.contrEquiv1 dot_S1600000x64_S64x2_S1600000x2_1_0_0_1_n_n 64 rfl rfl).symm k) = ix2 r k := funext fun d => Fin.ext (by
    match d with
    | ⟨0, _⟩ =>
      show (dot_S1600000x64_S64x2_S1600000x2_1_0_0_1_n_n.lhsIdx (ix2 r c) _ 0).val = r.val
      unfold DotDims.lhsIdx
      rw [dif_neg (show ¬(0 : Fin S1600000x64.rank) ∈ dot_S1600000x64_S64x2_S1600000x2_1_0_0_1_n_n.lhsBatch by decide), dif_pos (show (0 : Fin S1600000x64.rank) ∈ dot_S1600000x64_S64x2_S1600000x2_1_0_0_1_n_n.lhsNonContracting by decide)]
      rfl
    | ⟨1, _⟩ => exact (dot_S1600000x64_S64x2_S1600000x2_1_0_0_1_n_n.lhsIdx_val_of_single rfl (ix2 r c) _).trans hk)
  have er : dot_S1600000x64_S64x2_S1600000x2_1_0_0_1_n_n.rhsIdx (ix2 r c) ((ValueIdx.contrEquiv1 dot_S1600000x64_S64x2_S1600000x2_1_0_0_1_n_n 64 rfl rfl).symm k) = ix2 k c := funext fun d => Fin.ext (by
    match d with
    | ⟨0, _⟩ => exact (dot_S1600000x64_S64x2_S1600000x2_1_0_0_1_n_n.rhsIdx_val_of_single rfl (ix2 r c) _).trans hk
    | ⟨1, _⟩ =>
      show (dot_S1600000x64_S64x2_S1600000x2_1_0_0_1_n_n.rhsIdx (ix2 r c) _ 1).val = c.val
      unfold DotDims.rhsIdx
      rw [dif_neg (show ¬(1 : Fin S64x2.rank) ∈ dot_S1600000x64_S64x2_S1600000x2_1_0_0_1_n_n.rhsBatch by decide), dif_pos (show (1 : Fin S64x2.rank) ∈ dot_S1600000x64_S64x2_S1600000x2_1_0_0_1_n_n.rhsNonContracting by decide)]
      rfl)
  rw [el, er]

/-- The product of an [100000, 64] and a [64, 32] array, read at (r, c): the sum over the contracted coordinate k of the
    left operand at (r, k) times the right operand at (k, c). -/
theorem dg_64_32 {φ₁ φ₂ : FTy} (a : FVec Ideal S100000x64 φ₁) (b : FVec Ideal S64x32 φ₂) (r : Fin 100000) (c : Fin 32) :
    Host.dotGeneral (F := Ideal) dot_S100000x64_S64x32_S100000x32_1_0_0_1_n_n none a b (ix2 r c) = ∑ k : Fin 64, a (ix2 r k) * b (ix2 k c) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx (ix2 r c) ((ValueIdx.contrEquiv1 dot_S100000x64_S64x32_S100000x32_1_0_0_1_n_n 64 rfl rfl).symm k) = ix2 r k := funext fun d => Fin.ext (by
    match d with
    | ⟨0, _⟩ =>
      show (dot_S100000x64_S64x32_S100000x32_1_0_0_1_n_n.lhsIdx (ix2 r c) _ 0).val = r.val
      unfold DotDims.lhsIdx
      rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
      rfl
    | ⟨1, _⟩ => exact (dot_S100000x64_S64x32_S100000x32_1_0_0_1_n_n.lhsIdx_val_of_single rfl (ix2 r c) _).trans hk)
  have er : dot_S100000x64_S64x32_S100000x32_1_0_0_1_n_n.rhsIdx (ix2 r c) ((ValueIdx.contrEquiv1 dot_S100000x64_S64x32_S100000x32_1_0_0_1_n_n 64 rfl rfl).symm k) = ix2 k c := funext fun d => Fin.ext (by
    match d with
    | ⟨0, _⟩ => exact (dot_S100000x64_S64x32_S100000x32_1_0_0_1_n_n.rhsIdx_val_of_single rfl (ix2 r c) _).trans hk
    | ⟨1, _⟩ =>
      show (dot_S100000x64_S64x32_S100000x32_1_0_0_1_n_n.rhsIdx (ix2 r c) _ 1).val = c.val
      unfold DotDims.rhsIdx
      rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
      rfl)
  rw [el, er]

/-- The product of an [100000, 32] and a [32, 2] array, read at (r, c): the sum over the contracted coordinate k of the
    left operand at (r, k) times the right operand at (k, c). -/
theorem dg_32_2 {φ₁ φ₂ : FTy} (a : FVec Ideal S100000x32 φ₁) (b : FVec Ideal S32x2 φ₂) (r : Fin 100000) (c : Fin 2) :
    Host.dotGeneral (F := Ideal) dot_S100000x32_S32x2_S100000x2_1_0_0_1_n_n none a b (ix2 r c) = ∑ k : Fin 32, a (ix2 r k) * b (ix2 k c) := by
  simp only [Host.dotGeneral]
  rw [Ideal.dotGeneral_apply, ← Equiv.sum_comp (ValueIdx.contrEquiv1 dot_S100000x32_S32x2_S100000x2_1_0_0_1_n_n 32 rfl rfl).symm]
  refine Finset.sum_congr rfl fun k _ => ?_
  have hk := ValueIdx.contrEquiv1_symm_val dot_S100000x32_S32x2_S100000x2_1_0_0_1_n_n 32 rfl rfl k
  have el : dot_S100000x32_S32x2_S100000x2_1_0_0_1_n_n.lhsIdx (ix2 r c) ((ValueIdx.contrEquiv1 dot_S100000x32_S32x2_S100000x2_1_0_0_1_n_n 32 rfl rfl).symm k) = ix2 r k := funext fun d => Fin.ext (by
    match d with
    | ⟨0, _⟩ =>
      show (dot_S100000x32_S32x2_S100000x2_1_0_0_1_n_n.lhsIdx (ix2 r c) _ 0).val = r.val
      unfold DotDims.lhsIdx
      rw [dif_neg (show ¬(0 : Fin S100000x32.rank) ∈ dot_S100000x32_S32x2_S100000x2_1_0_0_1_n_n.lhsBatch by decide), dif_pos (show (0 : Fin S100000x32.rank) ∈ dot_S100000x32_S32x2_S100000x2_1_0_0_1_n_n.lhsNonContracting by decide)]
      rfl
    | ⟨1, _⟩ => exact (dot_S100000x32_S32x2_S100000x2_1_0_0_1_n_n.lhsIdx_val_of_single rfl (ix2 r c) _).trans hk)
  have er : dot_S100000x32_S32x2_S100000x2_1_0_0_1_n_n.rhsIdx (ix2 r c) ((ValueIdx.contrEquiv1 dot_S100000x32_S32x2_S100000x2_1_0_0_1_n_n 32 rfl rfl).symm k) = ix2 k c := funext fun d => Fin.ext (by
    match d with
    | ⟨0, _⟩ => exact (dot_S100000x32_S32x2_S100000x2_1_0_0_1_n_n.rhsIdx_val_of_single rfl (ix2 r c) _).trans hk
    | ⟨1, _⟩ =>
      show (dot_S100000x32_S32x2_S100000x2_1_0_0_1_n_n.rhsIdx (ix2 r c) _ 1).val = c.val
      unfold DotDims.rhsIdx
      rw [dif_neg (show ¬(1 : Fin S32x2.rank) ∈ dot_S100000x32_S32x2_S100000x2_1_0_0_1_n_n.rhsBatch by decide), dif_pos (show (1 : Fin S32x2.rank) ∈ dot_S100000x32_S32x2_S100000x2_1_0_0_1_n_n.rhsNonContracting by decide)]
      rfl)
  rw [el, er]

/-- A [64] bias broadcast to [1, 64] and then to [100000, 64], read at (r, c): the bias at c. -/
theorem bias_100000_64 {α : Type} (b : S64.Idx → α) (r : Fin 100000) (c : Fin 64) :
    broadcastInDim S100000x64 ![0, 1] bcast_S1x64_S100000x64_0_1 (broadcastInDim S1x64 ![1] bcast_S64_S1x64_1 b) (ix2 r c) = b (ix1 c) := by
  refine (broadcastInDim_apply _ bcast_S1x64_S100000x64_0_1 _ (ix2 r c) (ix2 0 c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  exact broadcastInDim_apply _ bcast_S64_S1x64_1 b (ix2 0 c) (ix1 c) (fun a => match a with
    | ⟨0, _⟩ => by show c.val = if (64 : Nat) = 1 then 0 else c.val; rw [if_neg (by decide)])

/-- A [2] bias broadcast to [1, 2] and then to [1600000, 2], read at (r, c): the bias at c. -/
theorem bias_1600000_2 {α : Type} (b : S2.Idx → α) (r : Fin 1600000) (c : Fin 2) :
    broadcastInDim S1600000x2 ![0, 1] bcast_S1x2_S1600000x2_0_1 (broadcastInDim S1x2 ![1] bcast_S2_S1x2_1 b) (ix2 r c) = b (ix1 c) := by
  refine (broadcastInDim_apply _ bcast_S1x2_S1600000x2_0_1 _ (ix2 r c) (ix2 0 c) (fun a => match a with
    | ⟨0, _⟩ => by show 0 = if (1 : Nat) = 1 then 0 else r.val; rw [if_pos rfl]
    | ⟨1, _⟩ => by show c.val = if (2 : Nat) = 1 then 0 else c.val; rw [if_neg (by decide)])).trans ?_
  exact broadcastInDim_apply _ bcast_S2_S1x2_1 b (ix2 0 c) (ix1 c) (fun a => match a with
    | ⟨0, _⟩ => by show c.val = if (2 : Nat) = 1 then 0 else c.val; rw [if_neg (by decide)])

/-- A [32] bias broadcast to [1, 32] and then to [100000, 32], read at (r, c): the bias at c. -/
theorem bias_100000_32 {α : Type} (b : S32.Idx → α) (r : Fin 100000) (c : Fin 32) :
    broadcastInDim S100000x32 ![0, 1] bcast_S1x32_S100000x32_0_1 (broadcastInDim S1x32 ![1] bcast_S32_S1x32_1 b) (ix2 r c) = b (ix1 c) := by
  refine (broadcastInDim_apply _ bcast_S1x32_S100000x32_0_1 _ (ix2 r c) (ix2 0 c) (fun a => match a with
    | ⟨0, _⟩ => by show 0 = if (1 : Nat) = 1 then 0 else r.val; rw [if_pos rfl]
    | ⟨1, _⟩ => by show c.val = if (32 : Nat) = 1 then 0 else c.val; rw [if_neg (by decide)])).trans ?_
  exact broadcastInDim_apply _ bcast_S32_S1x32_1 b (ix2 0 c) (ix1 c) (fun a => match a with
    | ⟨0, _⟩ => by show c.val = if (32 : Nat) = 1 then 0 else c.val; rw [if_neg (by decide)])

/-- A [2] bias broadcast to [1, 2] and then to [100000, 2], read at (r, c): the bias at c. -/
theorem bias_100000_2 {α : Type} (b : S2.Idx → α) (r : Fin 100000) (c : Fin 2) :
    broadcastInDim S100000x2 ![0, 1] bcast_S1x2_S100000x2_0_1 (broadcastInDim S1x2 ![1] bcast_S2_S1x2_1 b) (ix2 r c) = b (ix1 c) := by
  refine (broadcastInDim_apply _ bcast_S1x2_S100000x2_0_1 _ (ix2 r c) (ix2 0 c) (fun a => match a with
    | ⟨0, _⟩ => by show 0 = if (1 : Nat) = 1 then 0 else r.val; rw [if_pos rfl]
    | ⟨1, _⟩ => by show c.val = if (2 : Nat) = 1 then 0 else c.val; rw [if_neg (by decide)])).trans ?_
  exact broadcastInDim_apply _ bcast_S2_S1x2_1 b (ix2 0 c) (ix1 c) (fun a => match a with
    | ⟨0, _⟩ => by show c.val = if (2 : Nat) = 1 then 0 else c.val; rw [if_neg (by decide)])

/-- A linear layer of the reference at (r, c): the row of x against the column of W, plus the bias at c. (The term is the first layer's linear map with its operands as variables.) -/
theorem lin128_at (x : Vec Ideal S100000x128 .f32) (W : Vec Ideal S128x64 .f32) (b : Vec Ideal S64 .f32) (r : Fin 100000) (c : Fin 64) :
    addf (F := Ideal) (Host.dotGeneral (F := Ideal) (φ₁ := .f32) (φ₂ := .f32) dot_S100000x128_S128x64_S100000x64_1_0_0_1_n_n none x W)
        (broadcastInDim S100000x64 ![0, 1] bcast_S1x64_S100000x64_0_1 (broadcastInDim S1x64 ![1] bcast_S64_S1x64_1 b)) (ix2 r c)
      = (∑ k : Fin 128, x (ix2 r k) * W (ix2 k c)) + b (ix1 c) := by
  show Host.dotGeneral (F := Ideal) (φ₁ := .f32) (φ₂ := .f32) dot_S100000x128_S128x64_S100000x64_1_0_0_1_n_n none x W (ix2 r c)
      + broadcastInDim S100000x64 ![0, 1] bcast_S1x64_S100000x64_0_1 (broadcastInDim S1x64 ![1] bcast_S64_S1x64_1 b) (ix2 r c) = _
  rw [dg_128_64, bias_100000_64]

/-- The zero splat the first layer's rectifier compares against is 0 everywhere. -/
theorem relu_zero_call0 (i : S100000x64.Idx) : val_main_call0_v0 (F := Ideal) i = 0 := by
  rw [val_main_call0_v0_apply, val_main_call0_cst_apply]
  exact Ideal.ofBits_zero_f32

/-- The first layer's rectifier in the reference, at (r, c): the larger of the element and zero. -/
theorem relu_call0_at (x : Vec Ideal S100000x64 .f32) (r : Fin 100000) (c : Fin 64) :
    maximumf (F := Ideal) (φ := .f32) x (val_main_call0_v0 (F := Ideal)) (ix2 r c) = max (x (ix2 r c)) 0 := by
  show max (x (ix2 r c)) (val_main_call0_v0 (F := Ideal) (ix2 r c)) = _
  rw [relu_zero_call0]

/-- The first layer's rectifier of a sum, at (r, c): the larger of the sum and zero. -/
theorem relu_add_call0_at (a b : Vec Ideal S100000x64 .f32) (r : Fin 100000) (c : Fin 64) :
    maximumf (F := Ideal) (φ := .f32) (addf (F := Ideal) (φ := .f32) a b) (val_main_call0_v0 (F := Ideal)) (ix2 r c) = max (a (ix2 r c) + b (ix2 r c)) 0 :=
  relu_call0_at (addf (F := Ideal) (φ := .f32) a b) r c

/-- The zero splat the second layer's rectifier compares against is 0 everywhere. -/
theorem relu_zero_call1 (i : S100000x64.Idx) : val_main_call1_v0 (F := Ideal) i = 0 := by
  rw [val_main_call1_v0_apply, val_main_call1_cst_apply]
  exact Ideal.ofBits_zero_f32

/-- The second layer's rectifier in the reference, at (r, c): the larger of the element and zero. -/
theorem relu_call1_at (x : Vec Ideal S100000x64 .f32) (r : Fin 100000) (c : Fin 64) :
    maximumf (F := Ideal) (φ := .f32) x (val_main_call1_v0 (F := Ideal)) (ix2 r c) = max (x (ix2 r c)) 0 := by
  show max (x (ix2 r c)) (val_main_call1_v0 (F := Ideal) (ix2 r c)) = _
  rw [relu_zero_call1]

/-- The second layer's rectifier of a sum, at (r, c): the larger of the sum and zero. -/
theorem relu_add_call1_at (a b : Vec Ideal S100000x64 .f32) (r : Fin 100000) (c : Fin 64) :
    maximumf (F := Ideal) (φ := .f32) (addf (F := Ideal) (φ := .f32) a b) (val_main_call1_v0 (F := Ideal)) (ix2 r c) = max (a (ix2 r c) + b (ix2 r c)) 0 :=
  relu_call1_at (addf (F := Ideal) (φ := .f32) a b) r c

/-- The zero splat the classifier's hidden rectifier compares against is 0 everywhere. -/
theorem relu_zero_call2 (i : S100000x32.Idx) : val_main_call2_v0 (F := Ideal) i = 0 := by
  rw [val_main_call2_v0_apply, val_main_call2_cst_apply]
  exact Ideal.ofBits_zero_f32

/-- The classifier's hidden rectifier in the reference, at (r, c): the larger of the element and zero. -/
theorem relu_call2_at (x : Vec Ideal S100000x32 .f32) (r : Fin 100000) (c : Fin 32) :
    maximumf (F := Ideal) (φ := .f32) x (val_main_call2_v0 (F := Ideal)) (ix2 r c) = max (x (ix2 r c)) 0 := by
  show max (x (ix2 r c)) (val_main_call2_v0 (F := Ideal) (ix2 r c)) = _
  rw [relu_zero_call2]

/-- The classifier's hidden rectifier of a sum, at (r, c): the larger of the sum and zero. -/
theorem relu_add_call2_at (a b : Vec Ideal S100000x32 .f32) (r : Fin 100000) (c : Fin 32) :
    maximumf (F := Ideal) (φ := .f32) (addf (F := Ideal) (φ := .f32) a b) (val_main_call2_v0 (F := Ideal)) (ix2 r c) = max (a (ix2 r c) + b (ix2 r c)) 0 :=
  relu_call2_at (addf (F := Ideal) (φ := .f32) a b) r c

/-- The reference's attention logits at (e, h): the source row against A_src plus the destination row against
    A_dst, plus the bias at h. -/
theorem attn_at (s d : Vec Ideal S1600000x64 .f32) (As Ad : Vec Ideal S64x2 .f32) (a : Vec Ideal S2 .f32) (e : Fin 1600000) (h : Fin 2) :
    addf (F := Ideal) (addf (F := Ideal) (Host.dotGeneral (F := Ideal) (φ₁ := .f32) (φ₂ := .f32) dot_S1600000x64_S64x2_S1600000x2_1_0_0_1_n_n none s As)
          (Host.dotGeneral (F := Ideal) (φ₁ := .f32) (φ₂ := .f32) dot_S1600000x64_S64x2_S1600000x2_1_0_0_1_n_n none d Ad))
        (broadcastInDim S1600000x2 ![0, 1] bcast_S1x2_S1600000x2_0_1 (broadcastInDim S1x2 ![1] bcast_S2_S1x2_1 a)) (ix2 e h)
      = ((∑ k : Fin 64, s (ix2 e k) * As (ix2 k h)) + (∑ k : Fin 64, d (ix2 e k) * Ad (ix2 k h))) + a (ix1 h) := by
  show (Host.dotGeneral (F := Ideal) (φ₁ := .f32) (φ₂ := .f32) dot_S1600000x64_S64x2_S1600000x2_1_0_0_1_n_n none s As (ix2 e h)
      + Host.dotGeneral (F := Ideal) (φ₁ := .f32) (φ₂ := .f32) dot_S1600000x64_S64x2_S1600000x2_1_0_0_1_n_n none d Ad (ix2 e h))
      + broadcastInDim S1600000x2 ![0, 1] bcast_S1x2_S1600000x2_0_1 (broadcastInDim S1x2 ![1] bcast_S2_S1x2_1 a) (ix2 e h) = _
  rw [dg_64_2, dg_64_2, bias_1600000_2]

/-- A linear layer of the reference at (r, c): the row of x against the column of W, plus the bias at c. (The second layer's linear map.) -/
theorem lin64_at (x : Vec Ideal S100000x64 .f32) (W : Vec Ideal S64x64 .f32) (b : Vec Ideal S64 .f32) (r : Fin 100000) (c : Fin 64) :
    addf (F := Ideal) (Host.dotGeneral (F := Ideal) (φ₁ := .f32) (φ₂ := .f32) dot_S100000x64_S64x64_S100000x64_1_0_0_1_n_n none x W)
        (broadcastInDim S100000x64 ![0, 1] bcast_S1x64_S100000x64_0_1 (broadcastInDim S1x64 ![1] bcast_S64_S1x64_1 b)) (ix2 r c)
      = (∑ k : Fin 64, x (ix2 r k) * W (ix2 k c)) + b (ix1 c) := by
  show Host.dotGeneral (F := Ideal) (φ₁ := .f32) (φ₂ := .f32) dot_S100000x64_S64x64_S100000x64_1_0_0_1_n_n none x W (ix2 r c)
      + broadcastInDim S100000x64 ![0, 1] bcast_S1x64_S100000x64_0_1 (broadcastInDim S1x64 ![1] bcast_S64_S1x64_1 b) (ix2 r c) = _
  rw [dg_64_64, bias_100000_64]

/-- The reference's classifier over an operand x : [100000, 64], at (r, c): the hidden layer's rectified row
    against Wc2, plus the bias at c. -/
theorem cls_at (x : Vec Ideal S100000x64 .f32) (W1 : Vec Ideal S64x32 .f32) (b1 : Vec Ideal S32 .f32)
    (W2 : Vec Ideal S32x2 .f32) (b2 : Vec Ideal S2 .f32) (r : Fin 100000) (c : Fin 2) :
    addf (F := Ideal) (Host.dotGeneral (F := Ideal) (φ₁ := .f32) (φ₂ := .f32) dot_S100000x32_S32x2_S100000x2_1_0_0_1_n_n none
          (maximumf (F := Ideal) (addf (F := Ideal) (Host.dotGeneral (F := Ideal) (φ₁ := .f32) (φ₂ := .f32) dot_S100000x64_S64x32_S100000x32_1_0_0_1_n_n none x W1)
              (broadcastInDim S100000x32 ![0, 1] bcast_S1x32_S100000x32_0_1 (broadcastInDim S1x32 ![1] bcast_S32_S1x32_1 b1)))
            (val_main_call2_v0 (F := Ideal))) W2)
        (broadcastInDim S100000x2 ![0, 1] bcast_S1x2_S100000x2_0_1 (broadcastInDim S1x2 ![1] bcast_S2_S1x2_1 b2)) (ix2 r c)
      = (∑ j : Fin 32, max ((∑ k : Fin 64, x (ix2 r k) * W1 (ix2 k j)) + b1 (ix1 j)) 0 * W2 (ix2 j c)) + b2 (ix1 c) := by
  show Host.dotGeneral (F := Ideal) (φ₁ := .f32) (φ₂ := .f32) dot_S100000x32_S32x2_S100000x2_1_0_0_1_n_n none _ W2 (ix2 r c)
      + broadcastInDim S100000x2 ![0, 1] bcast_S1x2_S100000x2_0_1 (broadcastInDim S1x2 ![1] bcast_S2_S1x2_1 b2) (ix2 r c) = _
  rw [dg_32_2, bias_100000_2]
  refine congrArg (· + b2 (ix1 c)) (Finset.sum_congr rfl fun j _ => ?_)
  refine congrArg (· * W2 (ix2 j c)) ?_
  refine (relu_call2_at _ r j).trans ?_
  show max (Host.dotGeneral (F := Ideal) (φ₁ := .f32) (φ₂ := .f32) dot_S100000x64_S64x32_S100000x32_1_0_0_1_n_n none x W1 (ix2 r j)
      + broadcastInDim S100000x32 ![0, 1] bcast_S1x32_S100000x32_0_1 (broadcastInDim S1x32 ![1] bcast_S32_S1x32_1 b1) (ix2 r j)) 0 = _
  rw [dg_64_32, bias_100000_32]

/-! ## The same readings stated for the reference's own values

Each stage above, at the operands the reference applies it to. -/

section AtMain
variable (x0 : Vec Ideal S100000x128 .f32) (x1 : Vec Ideal S2x1600000 .i32) (x2 : Vec Ideal S128x64 .f32) (x3 : Vec Ideal S64 .f32)
  (x4 : Vec Ideal S128x2 .f32) (x5 : Vec Ideal S2 .f32) (x6 : Vec Ideal S64x64 .f32) (x7 : Vec Ideal S64 .f32)
  (x8 : Vec Ideal S128x2 .f32) (x9 : Vec Ideal S2 .f32) (x10 : Vec Ideal S64x32 .f32) (x11 : Vec Ideal S32 .f32)
  (x12 : Vec Ideal S32x2 .f32) (x13 : Vec Ideal S2 .f32)

/-- The first layer's linear map at (r, c). -/
theorem val_main_v3_at (r : Fin 100000) (c : Fin 64) :
    val_main_v3 (F := Ideal) x0 x2 x3 (ix2 r c) = (∑ k : Fin 128, x0 (ix2 r k) * x2 (ix2 k c)) + x3 (ix1 c) := by
  unfold val_main_v3 val_main_v0 val_main_v2 val_main_v1
  exact lin128_at x0 x2 x3 r c

/-- The first layer's attention logits at (e, h), over the gathered source and destination rows and the two halves of A. -/
theorem val_main_v29_at (e : Fin 1600000) (h : Fin 2) :
    val_main_v29 (F := Ideal) x0 x1 x2 x3 x4 x5 (ix2 e h)
      = ((∑ k : Fin 64, val_main_v14 (F := Ideal) x0 x1 x2 x3 (ix2 e k) * val_main_v22 (F := Ideal) x4 (ix2 k h))
          + (∑ k : Fin 64, val_main_v21 (F := Ideal) x0 x1 x2 x3 (ix2 e k) * val_main_v24 (F := Ideal) x4 (ix2 k h))) + x5 (ix1 h) := by
  unfold val_main_v29 val_main_v26 val_main_v23 val_main_v25 val_main_v28 val_main_v27
  exact attn_at _ _ _ _ _ e h

/-- The first layer's output at (r, c): the rectified sum of the aggregate and the linear map. -/
theorem val_main_v52_at (r : Fin 100000) (c : Fin 64) :
    val_main_v52 (F := Ideal) x0 x1 x2 x3 x4 x5 (ix2 r c)
      = max (val_main_v50 (F := Ideal) x0 x1 x2 x3 x4 x5 (ix2 r c) + val_main_v3 (F := Ideal) x0 x2 x3 (ix2 r c)) 0 := by
  unfold val_main_v52 val_main_v51
  exact relu_add_call0_at _ _ r c

/-- The second layer's linear map at (r, c), over the first layer's output. -/
theorem val_main_v56_at (r : Fin 100000) (c : Fin 64) :
    val_main_v56 (F := Ideal) x0 x1 x2 x3 x4 x5 x6 x7 (ix2 r c)
      = (∑ k : Fin 64, val_main_v52 (F := Ideal) x0 x1 x2 x3 x4 x5 (ix2 r k) * x6 (ix2 k c)) + x7 (ix1 c) := by
  unfold val_main_v56 val_main_v53 val_main_v55 val_main_v54
  exact lin64_at _ _ _ r c

/-- The second layer's attention logits at (e, h). -/
theorem val_main_v82_at (e : Fin 1600000) (h : Fin 2) :
    val_main_v82 (F := Ideal) x0 x1 x2 x3 x4 x5 x6 x7 x8 x9 (ix2 e h)
      = ((∑ k : Fin 64, val_main_v67 (F := Ideal) x0 x1 x2 x3 x4 x5 x6 x7 (ix2 e k) * val_main_v75 (F := Ideal) x8 (ix2 k h))
          + (∑ k : Fin 64, val_main_v74 (F := Ideal) x0 x1 x2 x3 x4 x5 x6 x7 (ix2 e k) * val_main_v77 (F := Ideal) x8 (ix2 k h))) + x9 (ix1 h) := by
  unfold val_main_v82 val_main_v79 val_main_v76 val_main_v78 val_main_v81 val_main_v80
  exact attn_at _ _ _ _ _ e h

/-- The second layer's output at (r, c). -/
theorem val_main_v105_at (r : Fin 100000) (c : Fin 64) :
    val_main_v105 (F := Ideal) x0 x1 x2 x3 x4 x5 x6 x7 x8 x9 (ix2 r c)
      = max (val_main_v103 (F := Ideal) x0 x1 x2 x3 x4 x5 x6 x7 x8 x9 (ix2 r c) + val_main_v56 (F := Ideal) x0 x1 x2 x3 x4 x5 x6 x7 (ix2 r c)) 0 := by
  unfold val_main_v105 val_main_v104
  exact relu_add_call1_at _ _ r c

/-- The classifier's output at (r, c), over the second layer's output. -/
theorem val_main_v114_at (r : Fin 100000) (c : Fin 2) :
    val_main_v114 (F := Ideal) x0 x1 x2 x3 x4 x5 x6 x7 x8 x9 x10 x11 x12 x13 (ix2 r c)
      = (∑ j : Fin 32, max ((∑ k : Fin 64, val_main_v105 (F := Ideal) x0 x1 x2 x3 x4 x5 x6 x7 x8 x9 (ix2 r k) * x10 (ix2 k j)) + x11 (ix1 j)) 0 * x12 (ix2 j c))
          + x13 (ix1 c) := by
  unfold val_main_v114 val_main_v111 val_main_v110 val_main_v109 val_main_v106 val_main_v108 val_main_v107 val_main_v113 val_main_v112
  exact cls_at _ _ _ _ _ r c

end AtMain

end Cert.Bridge.Stage

end
-- ==== Proof.Rows.lean ====
/-
  A bias vector as a one-row matrix. The kernel hands each bias of length n to its region reshaped to 1 × n; entry (0, c)
  of that matrix is entry c of the vector (a reshape keeps the row-major position, and the new leading axis has extent 1).
-/
import proofs.«151397_j43499428774652_2_alg».proof.Proof.Gen.KernelIdeal
import Idealize.ShloMosaic.PureOps.Ideal
import Idealize.ShloMosaic.Lib.ValueIdx
import Idealize.ShloMosaic.Lib.Pipeline.Value

noncomputable section

namespace Cert.Bridge.Rows

open Idealize.ShloMosaic Idealize.ShloMosaic.TcCoe Idealize.SL.Sem Idealize.ShloMosaic.ValueIdx
open Cert.KernelIdeal Cert.KernelIdeal.Gen

/-- A vector of length 64 as a 1 × 64 matrix. -/
def row64 (b : S64.Idx → EReal) : S1x64.Idx → EReal := shapeCast S1x64 b shapeCasts_S64_S1x64
/-- A vector of length 32 as a 1 × 32 matrix. -/
def row32 (b : S32.Idx → EReal) : S1x32.Idx → EReal := shapeCast S1x32 b shapeCasts_S32_S1x32
/-- A vector of length 2 as a 1 × 2 matrix. -/
def row2 (b : S2.Idx → EReal) : S1x2.Idx → EReal := shapeCast S1x2 b shapeCasts_S2_S1x2

/-- Entry (0, c) of the one-row matrix is entry c of the vector. -/
theorem row64_at (b : S64.Idx → EReal) (c : Fin 64) : row64 b (ix2 (0 : Fin 1) c) = b (ix1 c) :=
  (shapeCast_addUnit_apply ![64] b shapeCasts_S64_S1x64 (ix2 (0 : Fin 1) c)).trans
    (congrArg b (funext fun a => match a with | ⟨0, _⟩ => rfl))
theorem row32_at (b : S32.Idx → EReal) (c : Fin 32) : row32 b (ix2 (0 : Fin 1) c) = b (ix1 c) :=
  (shapeCast_addUnit_apply ![32] b shapeCasts_S32_S1x32 (ix2 (0 : Fin 1) c)).trans
    (congrArg b (funext fun a => match a with | ⟨0, _⟩ => rfl))
theorem row2_at (b : S2.Idx → EReal) (c : Fin 2) : row2 b (ix2 (0 : Fin 1) c) = b (ix1 c) :=
  (shapeCast_addUnit_apply ![2] b shapeCasts_S2_S1x2 (ix2 (0 : Fin 1) c)).trans
    (congrArg b (funext fun a => match a with | ⟨0, _⟩ => rfl))

end Cert.Bridge.Rows

end
-- ==== Proof.Bridge.lean ====
/-
  The joins between the two programs, one per tiled region. The block lemmas say what each region leaves in its output
  array as a plain index-by-index function of the arrays it found: `x · W + b`, the two-sided attention logit,
  `max (a + b) 0`, and the two-layer classifier. The reference computes the same entries by a host matrix product, two
  broadcasts of the bias and a host maximum. Entry by entry both are the same sum over the shared coordinate followed by the
  same additions and the same maximum with zero, in the same order — no law of the extended reals beyond reading both sides
  at an index is used, so nothing here needs the inputs to be finite. The only difference in shape is the bias: the kernel
  reshapes a vector of length n into a one-row matrix whose entry (0, c) is the vector's entry c; the reference broadcasts
  it to every row.
-/
import proofs.«151397_j43499428774652_2_alg».proof.Proof.BlocksLin
import proofs.«151397_j43499428774652_2_alg».proof.Proof.BlocksAddRelu
import proofs.«151397_j43499428774652_2_alg».proof.Proof.BlocksAttn
import proofs.«151397_j43499428774652_2_alg».proof.Proof.BlocksCls
import proofs.«151397_j43499428774652_2_alg».proof.Proof.StageAt
import proofs.«151397_j43499428774652_2_alg».proof.Proof.Rows
import Idealize.ShloMosaic.Lib.ValueLayout

set_option maxRecDepth 16384

noncomputable section

namespace Cert.Bridge.Whole

open Idealize.ShloMosaic Idealize.ShloMosaic.TcCoe Idealize.SL.Sem Idealize.ShloMosaic.ValueIdx
open Cert.KernelIdeal
open Cert.Bridge.Rows
open Cert.KernelIdeal.BlocksLin Cert.KernelIdeal.BlocksAddRelu Cert.KernelIdeal.BlocksAttn Cert.KernelIdeal.BlocksCls

/-! ## The seven joins, at @main's arguments -/

variable (x0 : S100000x128.Idx → EReal) (x1 : (⟨S2x1600000, .i32⟩ : BufTy).Contents (Elt Ideal)) (x2 : S128x64.Idx → EReal) (x3 : S64.Idx → EReal) (x4 : S128x2.Idx → EReal) (x5 : S2.Idx → EReal) (x6 : S64x64.Idx → EReal) (x7 : S64.Idx → EReal) (x8 : S128x2.Idx → EReal) (x9 : S2.Idx → EReal) (x10 : S64x32.Idx → EReal) (x11 : S32.Idx → EReal) (x12 : S32x2.Idx → EReal) (x13 : S2.Idx → EReal)

/-- Layer 1's projection: `features · W0 + b0`. -/
theorem lin_layer1 : lin128 x0 x2 (row64 x3) = Cert.ReferenceIdeal.Read.val_main_v3 (F := Ideal) x0 x2 x3 := by
  funext i
  obtain ⟨r, c, rfl⟩ : ∃ (r : Fin 100000) (c : Fin 64), i = ix2 r c := ⟨i 0, i 1, eq_ix2 i⟩
  refine Eq.trans ?_ (Cert.Bridge.Stage.val_main_v3_at x0 x2 x3 r c).symm
  show lin128At x0 x2 (row64 x3) r c = _
  unfold lin128At
  rw [row64_at]

/-- Layer 1's attention logits over the gathered source and destination rows. -/
theorem attn_layer1 : attn (Cert.ReferenceIdeal.Read.val_main_v14 (F := Ideal) x0 x1 x2 x3) (Cert.ReferenceIdeal.Read.val_main_v21 (F := Ideal) x0 x1 x2 x3)
      (Cert.ReferenceIdeal.Read.val_main_v22 (F := Ideal) x4) (Cert.ReferenceIdeal.Read.val_main_v24 (F := Ideal) x4) (row2 x5)
    = Cert.ReferenceIdeal.Read.val_main_v29 (F := Ideal) x0 x1 x2 x3 x4 x5 := by
  funext i
  obtain ⟨e, h, rfl⟩ : ∃ (e : Fin 1600000) (h : Fin 2), i = ix2 e h := ⟨i 0, i 1, eq_ix2 i⟩
  refine Eq.trans ?_ (Cert.Bridge.Stage.val_main_v29_at x0 x1 x2 x3 x4 x5 e h).symm
  show attnAt _ _ _ _ (row2 x5) e h = _
  unfold attnAt
  rw [row2_at]

/-- Layer 1's output: the scattered messages plus the projection, cut at zero. -/
theorem addRelu_layer1 : addRelu (Cert.ReferenceIdeal.Read.val_main_v50 (F := Ideal) x0 x1 x2 x3 x4 x5) (Cert.ReferenceIdeal.Read.val_main_v3 (F := Ideal) x0 x2 x3)
    = Cert.ReferenceIdeal.Read.val_main_v52 (F := Ideal) x0 x1 x2 x3 x4 x5 := by
  funext i
  obtain ⟨r, c, rfl⟩ : ∃ (r : Fin 100000) (c : Fin 64), i = ix2 r c := ⟨i 0, i 1, eq_ix2 i⟩
  exact (Cert.Bridge.Stage.val_main_v52_at x0 x1 x2 x3 x4 x5 r c).symm

/-- Layer 2's projection. -/
theorem lin_layer2 : lin64 (Cert.ReferenceIdeal.Read.val_main_v52 (F := Ideal) x0 x1 x2 x3 x4 x5) x6 (row64 x7) = Cert.ReferenceIdeal.Read.val_main_v56 (F := Ideal) x0 x1 x2 x3 x4 x5 x6 x7 := by
  funext i
  obtain ⟨r, c, rfl⟩ : ∃ (r : Fin 100000) (c : Fin 64), i = ix2 r c := ⟨i 0, i 1, eq_ix2 i⟩
  refine Eq.trans ?_ (Cert.Bridge.Stage.val_main_v56_at x0 x1 x2 x3 x4 x5 x6 x7 r c).symm
  show lin64At _ x6 (row64 x7) r c = _
  unfold lin64At
  rw [row64_at]

/-- Layer 2's attention logits. -/
theorem attn_layer2 : attn (Cert.ReferenceIdeal.Read.val_main_v67 (F := Ideal) x0 x1 x2 x3 x4 x5 x6 x7) (Cert.ReferenceIdeal.Read.val_main_v74 (F := Ideal) x0 x1 x2 x3 x4 x5 x6 x7)
      (Cert.ReferenceIdeal.Read.val_main_v75 (F := Ideal) x8) (Cert.ReferenceIdeal.Read.val_main_v77 (F := Ideal) x8) (row2 x9)
    = Cert.ReferenceIdeal.Read.val_main_v82 (F := Ideal) x0 x1 x2 x3 x4 x5 x6 x7 x8 x9 := by
  funext i
  obtain ⟨e, h, rfl⟩ : ∃ (e : Fin 1600000) (h : Fin 2), i = ix2 e h := ⟨i 0, i 1, eq_ix2 i⟩
  refine Eq.trans ?_ (Cert.Bridge.Stage.val_main_v82_at x0 x1 x2 x3 x4 x5 x6 x7 x8 x9 e h).symm
  show attnAt _ _ _ _ (row2 x9) e h = _
  unfold attnAt
  rw [row2_at]

/-- Layer 2's output. -/
theorem addRelu_layer2 : addRelu (Cert.ReferenceIdeal.Read.val_main_v103 (F := Ideal) x0 x1 x2 x3 x4 x5 x6 x7 x8 x9) (Cert.ReferenceIdeal.Read.val_main_v56 (F := Ideal) x0 x1 x2 x3 x4 x5 x6 x7)
    = Cert.ReferenceIdeal.Read.val_main_v105 (F := Ideal) x0 x1 x2 x3 x4 x5 x6 x7 x8 x9 := by
  funext i
  obtain ⟨r, c, rfl⟩ : ∃ (r : Fin 100000) (c : Fin 64), i = ix2 r c := ⟨i 0, i 1, eq_ix2 i⟩
  exact (Cert.Bridge.Stage.val_main_v105_at x0 x1 x2 x3 x4 x5 x6 x7 x8 x9 r c).symm

/-- The classifier on layer 2's output. -/
theorem cls_final : cls (Cert.ReferenceIdeal.Read.val_main_v105 (F := Ideal) x0 x1 x2 x3 x4 x5 x6 x7 x8 x9) x10 (row32 x11) x12 (row2 x13)
    = Cert.ReferenceIdeal.Read.val_main_v114 (F := Ideal) x0 x1 x2 x3 x4 x5 x6 x7 x8 x9 x10 x11 x12 x13 := by
  funext i
  obtain ⟨r, c, rfl⟩ : ∃ (r : Fin 100000) (c : Fin 2), i = ix2 r c := ⟨i 0, i 1, eq_ix2 i⟩
  refine Eq.trans ?_ (Cert.Bridge.Stage.val_main_v114_at x0 x1 x2 x3 x4 x5 x6 x7 x8 x9 x10 x11 x12 x13 r c).symm
  show clsAt _ x10 (row32 x11) x12 (row2 x13) r c = _
  unfold clsAt
  simp only [row32_at, row2_at]

end Cert.Bridge.Whole

end
-- ==== Proof.Stretch0.lean ====
import proofs.«151397_j43499428774652_2_alg».proof.Proof.Gen.KernelIdeal.Launch
import proofs.«151397_j43499428774652_2_alg».proof.Proof.Gen.ReferenceIdeal.Read
import proofs.«151397_j43499428774652_2_alg».proof.Proof.Rows
import Idealize.ShloMosaic.Lib.StableHlo.Run

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen

variable (Wp : Valuation τ sig (Elt Ideal))

/-- The source node of every edge: row 0 of the edge list, flattened. -/
theorem srcIdx (x1 : (⟨Cert.ReferenceIdeal.S2x1600000, .i32⟩ : BufTy).Contents (Elt Ideal))
    (h1 : Wp (Proc.devRef .tc main_arg1) = x1) :
    StableHlo.after (hostOps0 (F := Ideal)) Wp (Proc.devRef .tc main_v1) = Cert.ReferenceIdeal.Read.val_main_v5 x1 := by
  after_results
  rw [h1]
  rfl

/-- The destination node of every edge: row 1 of the edge list, flattened. -/
theorem dstIdx (x1 : (⟨Cert.ReferenceIdeal.S2x1600000, .i32⟩ : BufTy).Contents (Elt Ideal))
    (h1 : Wp (Proc.devRef .tc main_arg1) = x1) :
    StableHlo.after (hostOps0 (F := Ideal)) Wp (Proc.devRef .tc main_v3) = Cert.ReferenceIdeal.Read.val_main_v7 x1 := by
  after_results
  rw [h1]
  rfl

/-- The first layer's bias as a one-row matrix. -/
theorem biasRow (x3 : (⟨Cert.ReferenceIdeal.S64, .f32⟩ : BufTy).Contents (Elt Ideal))
    (h3 : Wp (Proc.devRef .tc main_arg3) = x3) :
    StableHlo.after (hostOps0 (F := Ideal)) Wp (Proc.devRef .tc main_v4) = Cert.Bridge.Rows.row64 x3 := by
  after_results
  rw [h3]
  rfl

end Cert.KernelIdeal.Stretch0

end
-- ==== Proof.Stretch1.lean ====
import proofs.«151397_j43499428774652_2_alg».proof.Proof.Gen.KernelIdeal.Launch
import proofs.«151397_j43499428774652_2_alg».proof.Proof.Gen.ReferenceIdeal.Read
import proofs.«151397_j43499428774652_2_alg».proof.Proof.Rows
import Idealize.ShloMosaic.Lib.StableHlo.Run

set_option maxRecDepth 16384

noncomputable section

namespace Cert.KernelIdeal.Stretch1

open Idealize.ShloMosaic Idealize.ShloMosaic.TcCoe Idealize.SL.Sem Idealize.ShloMosaic.StableHlo
open Cert.KernelIdeal Cert.KernelIdeal.Gen

variable (Wp : Valuation τ sig (Elt Ideal))

set_option maxHeartbeats 8000000 in
/-- The first layer's features gathered at every edge's source node. -/
theorem srcRows (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (h5 : Wp (Proc.devRef .tc main_v5) = Cert.ReferenceIdeal.Read.val_main_v3 x0 x2 x3)
    (h1 : Wp (Proc.devRef .tc main_v1) = Cert.ReferenceIdeal.Read.val_main_v5 x1) :
    StableHlo.after (hostOps1 (F := Ideal)) Wp (Proc.devRef .tc main_v12) = Cert.ReferenceIdeal.Read.val_main_v14 x0 x1 x2 x3 := by
  after_results
  rw [h5, h1]
  rfl

set_option maxHeartbeats 8000000 in
/-- The first layer's features gathered at every edge's destination node. -/
theorem dstRows (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (h5 : Wp (Proc.devRef .tc main_v5) = Cert.ReferenceIdeal.Read.val_main_v3 x0 x2 x3)
    (h3 : Wp (Proc.devRef .tc main_v3) = Cert.ReferenceIdeal.Read.val_main_v7 x1) :
    StableHlo.after (hostOps1 (F := Ideal)) Wp (Proc.devRef .tc main_v19) = Cert.ReferenceIdeal.Read.val_main_v21 x0 x1 x2 x3 := by
  after_results
  rw [h5, h3]
  rfl

set_option maxHeartbeats 8000000 in
/-- The source half of the first layer's attention matrix: its first 64 rows. -/
theorem attnSrc (x4 : (⟨Cert.ReferenceIdeal.S128x2, .f32⟩ : BufTy).Contents (Elt Ideal))
    (ha4 : Wp (Proc.devRef .tc main_arg4) = x4) :
    StableHlo.after (hostOps1 (F := Ideal)) Wp (Proc.devRef .tc main_v20) = Cert.ReferenceIdeal.Read.val_main_v22 x4 := by
  after_results
  rw [ha4]
  rfl

set_option maxHeartbeats 8000000 in
/-- The destination half of the first layer's attention matrix: its last 64 rows. -/
theorem attnDst (x4 : (⟨Cert.ReferenceIdeal.S128x2, .f32⟩ : BufTy).Contents (Elt Ideal))
    (ha4 : Wp (Proc.devRef .tc main_arg4) = x4) :
    StableHlo.after (hostOps1 (F := Ideal)) Wp (Proc.devRef .tc main_v21) = Cert.ReferenceIdeal.Read.val_main_v24 x4 := by
  after_results
  rw [ha4]
  rfl

set_option maxHeartbeats 8000000 in
/-- The first layer's attention bias as a one-row matrix. -/
theorem biasRow (x5 : (⟨Cert.ReferenceIdeal.S2, .f32⟩ : BufTy).Contents (Elt Ideal))
    (ha5 : Wp (Proc.devRef .tc main_arg5) = x5) :
    StableHlo.after (hostOps1 (F := Ideal)) Wp (Proc.devRef .tc main_v22) = Cert.Bridge.Rows.row2 x5 := by
  after_results
  rw [ha5]
  rfl

end Cert.KernelIdeal.Stretch1

end
-- ==== Proof.Stretch2.lean ====
import proofs.«151397_j43499428774652_2_alg».proof.Proof.Gen.KernelIdeal.Launch
import proofs.«151397_j43499428774652_2_alg».proof.Proof.Gen.ReferenceIdeal.Read
import Idealize.ShloMosaic.Lib.StableHlo.Run

set_option maxRecDepth 16384

noncomputable section

namespace Cert.KernelIdeal.Stretch2

open Idealize.ShloMosaic Idealize.ShloMosaic.TcCoe Idealize.SL.Sem Idealize.ShloMosaic.StableHlo
open Cert.KernelIdeal Cert.KernelIdeal.Gen

variable (Wp : Valuation τ sig (Elt Ideal))

set_option maxHeartbeats 8000000 in
/-- The first layer's aggregate: each edge's source features weighted by the edge's softmax over all edges, summed into the edge's destination node. -/
theorem scattered (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal))
    (h23 : Wp (Proc.devRef .tc main_v23) = Cert.ReferenceIdeal.Read.val_main_v29 x0 x1 x2 x3 x4 x5)
    (h12 : Wp (Proc.devRef .tc main_v12) = Cert.ReferenceIdeal.Read.val_main_v14 x0 x1 x2 x3)
    (h3 : Wp (Proc.devRef .tc main_v3) = Cert.ReferenceIdeal.Read.val_main_v7 x1) :
    StableHlo.after (hostOps2 (F := Ideal)) Wp (Proc.devRef .tc main_v44) = Cert.ReferenceIdeal.Read.val_main_v50 x0 x1 x2 x3 x4 x5 := by
  after_results
  rw [h23, h12, h3]
  rfl

end Cert.KernelIdeal.Stretch2

end
-- ==== Proof.Stretch3.lean ====
import proofs.«151397_j43499428774652_2_alg».proof.Proof.Gen.KernelIdeal.Launch
import proofs.«151397_j43499428774652_2_alg».proof.Proof.Gen.ReferenceIdeal.Read
import proofs.«151397_j43499428774652_2_alg».proof.Proof.Rows
import Idealize.ShloMosaic.Lib.StableHlo.Run

set_option maxRecDepth 16384

noncomputable section

namespace Cert.KernelIdeal.Stretch3

open Idealize.ShloMosaic Idealize.ShloMosaic.TcCoe Idealize.SL.Sem Idealize.ShloMosaic.StableHlo
open Cert.KernelIdeal Cert.KernelIdeal.Gen

variable (Wp : Valuation τ sig (Elt Ideal))

/-- The second layer's bias as a one-row matrix. -/
theorem biasRow (x7 : (⟨Cert.ReferenceIdeal.S64, .f32⟩ : BufTy).Contents (Elt Ideal))
    (h7 : Wp (Proc.devRef .tc main_arg7) = x7) :
    StableHlo.after (hostOps3 (F := Ideal)) Wp (Proc.devRef .tc main_v46) = Cert.Bridge.Rows.row64 x7 := by
  after_results
  rw [h7]
  rfl

end Cert.KernelIdeal.Stretch3

end
-- ==== Proof.Stretch4.lean ====
import proofs.«151397_j43499428774652_2_alg».proof.Proof.Gen.KernelIdeal.Launch
import proofs.«151397_j43499428774652_2_alg».proof.Proof.Gen.ReferenceIdeal.Read
import proofs.«151397_j43499428774652_2_alg».proof.Proof.Rows
import Idealize.ShloMosaic.Lib.StableHlo.Run

set_option maxRecDepth 16384

noncomputable section

namespace Cert.KernelIdeal.Stretch4

open Idealize.ShloMosaic Idealize.ShloMosaic.TcCoe Idealize.SL.Sem Idealize.ShloMosaic.StableHlo
open Cert.KernelIdeal Cert.KernelIdeal.Gen

variable (Wp : Valuation τ sig (Elt Ideal))

set_option maxHeartbeats 8000000 in
/-- The second layer's features gathered at every edge's source node. -/
theorem srcRows (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (h47 : Wp (Proc.devRef .tc main_v47) = Cert.ReferenceIdeal.Read.val_main_v56 x0 x1 x2 x3 x4 x5 x6 x7)
    (h1 : Wp (Proc.devRef .tc main_v1) = Cert.ReferenceIdeal.Read.val_main_v5 x1) :
    StableHlo.after (hostOps4 (F := Ideal)) Wp (Proc.devRef .tc main_v54) = Cert.ReferenceIdeal.Read.val_main_v67 x0 x1 x2 x3 x4 x5 x6 x7 := by
  after_results
  rw [h47, h1]
  rfl

set_option maxHeartbeats 8000000 in
/-- The second layer's features gathered at every edge's destination node. -/
theorem dstRows (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (h47 : Wp (Proc.devRef .tc main_v47) = Cert.ReferenceIdeal.Read.val_main_v56 x0 x1 x2 x3 x4 x5 x6 x7)
    (h3 : Wp (Proc.devRef .tc main_v3) = Cert.ReferenceIdeal.Read.val_main_v7 x1) :
    StableHlo.after (hostOps4 (F := Ideal)) Wp (Proc.devRef .tc main_v61) = Cert.ReferenceIdeal.Read.val_main_v74 x0 x1 x2 x3 x4 x5 x6 x7 := by
  after_results
  rw [h47, h3]
  rfl

set_option maxHeartbeats 8000000 in
/-- The source half of the second layer's attention matrix: its first 64 rows. -/
theorem attnSrc (x8 : (⟨Cert.ReferenceIdeal.S128x2, .f32⟩ : BufTy).Contents (Elt Ideal))
    (ha8 : Wp (Proc.devRef .tc main_arg8) = x8) :
    StableHlo.after (hostOps4 (F := Ideal)) Wp (Proc.devRef .tc main_v62) = Cert.ReferenceIdeal.Read.val_main_v75 x8 := by
  after_results
  rw [ha8]
  rfl

set_option maxHeartbeats 8000000 in
/-- The destination half of the second layer's attention matrix: its last 64 rows. -/
theorem attnDst (x8 : (⟨Cert.ReferenceIdeal.S128x2, .f32⟩ : BufTy).Contents (Elt Ideal))
    (ha8 : Wp (Proc.devRef .tc main_arg8) = x8) :
    StableHlo.after (hostOps4 (F := Ideal)) Wp (Proc.devRef .tc main_v63) = Cert.ReferenceIdeal.Read.val_main_v77 x8 := by
  after_results
  rw [ha8]
  rfl

set_option maxHeartbeats 8000000 in
/-- The second layer's attention bias as a one-row matrix. -/
theorem biasRow (x9 : (⟨Cert.ReferenceIdeal.S2, .f32⟩ : BufTy).Contents (Elt Ideal))
    (ha9 : Wp (Proc.devRef .tc main_arg9) = x9) :
    StableHlo.after (hostOps4 (F := Ideal)) Wp (Proc.devRef .tc main_v64) = Cert.Bridge.Rows.row2 x9 := by
  after_results
  rw [ha9]
  rfl

end Cert.KernelIdeal.Stretch4

end
-- ==== Proof.Stretch5.lean ====
import proofs.«151397_j43499428774652_2_alg».proof.Proof.Gen.KernelIdeal.Launch
import proofs.«151397_j43499428774652_2_alg».proof.Proof.Gen.ReferenceIdeal.Read
import Idealize.ShloMosaic.Lib.StableHlo.Run

set_option maxRecDepth 16384

noncomputable section

namespace Cert.KernelIdeal.Stretch5

open Idealize.ShloMosaic Idealize.ShloMosaic.TcCoe Idealize.SL.Sem Idealize.ShloMosaic.StableHlo
open Cert.KernelIdeal Cert.KernelIdeal.Gen

variable (Wp : Valuation τ sig (Elt Ideal))

set_option maxHeartbeats 8000000 in
/-- The second layer's aggregate: each edge's source features weighted by the edge's softmax over all edges, summed into the edge's destination node. -/
theorem scattered (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S128x2, .f32⟩ : BufTy).Contents (Elt Ideal)) (x9 : (⟨Cert.ReferenceIdeal.S2, .f32⟩ : BufTy).Contents (Elt Ideal))
    (h65 : Wp (Proc.devRef .tc main_v65) = Cert.ReferenceIdeal.Read.val_main_v82 x0 x1 x2 x3 x4 x5 x6 x7 x8 x9)
    (h54 : Wp (Proc.devRef .tc main_v54) = Cert.ReferenceIdeal.Read.val_main_v67 x0 x1 x2 x3 x4 x5 x6 x7)
    (h3 : Wp (Proc.devRef .tc main_v3) = Cert.ReferenceIdeal.Read.val_main_v7 x1) :
    StableHlo.after (hostOps5 (F := Ideal)) Wp (Proc.devRef .tc main_v86) = Cert.ReferenceIdeal.Read.val_main_v103 x0 x1 x2 x3 x4 x5 x6 x7 x8 x9 := by
  after_results
  rw [h65, h54, h3]
  rfl

end Cert.KernelIdeal.Stretch5

end
-- ==== Proof.Stretch6.lean ====
import proofs.«151397_j43499428774652_2_alg».proof.Proof.Gen.KernelIdeal.Launch
import proofs.«151397_j43499428774652_2_alg».proof.Proof.Gen.ReferenceIdeal.Read
import proofs.«151397_j43499428774652_2_alg».proof.Proof.Rows
import Idealize.ShloMosaic.Lib.StableHlo.Run

set_option maxRecDepth 16384

noncomputable section

namespace Cert.KernelIdeal.Stretch6

open Idealize.ShloMosaic Idealize.ShloMosaic.TcCoe Idealize.SL.Sem Idealize.ShloMosaic.StableHlo
open Cert.KernelIdeal Cert.KernelIdeal.Gen

variable (Wp : Valuation τ sig (Elt Ideal))

/-- The classifier's hidden bias as a one-row matrix. -/
theorem hiddenBiasRow (x11 : (⟨Cert.ReferenceIdeal.S32, .f32⟩ : BufTy).Contents (Elt Ideal))
    (h11 : Wp (Proc.devRef .tc main_arg11) = x11) :
    StableHlo.after (hostOps6 (F := Ideal)) Wp (Proc.devRef .tc main_v88) = Cert.Bridge.Rows.row32 x11 := by
  after_results
  rw [h11]
  rfl

/-- The classifier's output bias as a one-row matrix. -/
theorem outBiasRow (x13 : (⟨Cert.ReferenceIdeal.S2, .f32⟩ : BufTy).Contents (Elt Ideal))
    (h13 : Wp (Proc.devRef .tc main_arg13) = x13) :
    StableHlo.after (hostOps6 (F := Ideal)) Wp (Proc.devRef .tc main_v89) = Cert.Bridge.Rows.row2 x13 := by
  after_results
  rw [h13]
  rfl

end Cert.KernelIdeal.Stretch6

end
-- ==== Proof.Chain.lean ====
/-
  The idealized kernel's buffers, boundary by boundary, against the reference's stages. @main alternates stretches of host
  operations with tiled regions; `Gen.W0 … Gen.W14` are the buffers' contents at the fifteen boundaries. Each theorem below
  says that one buffer, at one boundary, holds one stage of the reference applied to @main's arguments: a region's output by
  its block lemma and the join with the reference's stage; a host stretch's output because the stretch applies the very
  operations the reference applies; a buffer nobody writes in between by walking it from boundary to boundary. The last
  theorem is the result: at the last boundary the result buffer holds the reference's result term.
-/
import proofs.«151397_j43499428774652_2_alg».proof.Proof.Gen.KernelIdeal.Frame
import proofs.«151397_j43499428774652_2_alg».proof.Proof.Gen.ReferenceIdeal.Read
import proofs.«151397_j43499428774652_2_alg».proof.Proof.BlocksLin
import proofs.«151397_j43499428774652_2_alg».proof.Proof.BlocksAddRelu
import proofs.«151397_j43499428774652_2_alg».proof.Proof.BlocksAttn
import proofs.«151397_j43499428774652_2_alg».proof.Proof.BlocksCls
import proofs.«151397_j43499428774652_2_alg».proof.Proof.Bridge
import proofs.«151397_j43499428774652_2_alg».proof.Proof.Rows
import proofs.«151397_j43499428774652_2_alg».proof.Proof.Stretch0
import proofs.«151397_j43499428774652_2_alg».proof.Proof.Stretch1
import proofs.«151397_j43499428774652_2_alg».proof.Proof.Stretch2
import proofs.«151397_j43499428774652_2_alg».proof.Proof.Stretch3
import proofs.«151397_j43499428774652_2_alg».proof.Proof.Stretch4
import proofs.«151397_j43499428774652_2_alg».proof.Proof.Stretch5
import proofs.«151397_j43499428774652_2_alg».proof.Proof.Stretch6
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat Cfg Window)
open Cert.KernelIdeal Cert.KernelIdeal.Gen

/-- A buffer that no operation of a literal stretch of host operations writes holds after the stretch what it held
    before: the stretch's operations are listed, each one's result buffer is compared with the buffer at hand. -/
macro "host_keep " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

/-! ## @main's arguments as launched -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)

/-! ## Layer 1 -/

theorem W1_v1 (c : Dev nD) : W1 m ρ c (Proc.devRef .tc main_v1) = Cert.ReferenceIdeal.Read.val_main_v5 (F := Ideal) (A1 m c) :=
  Stretch0.srcIdx (W0 m ρ c) (A1 m c) rfl
theorem W1_v3 (c : Dev nD) : W1 m ρ c (Proc.devRef .tc main_v3) = Cert.ReferenceIdeal.Read.val_main_v7 (F := Ideal) (A1 m c) :=
  Stretch0.dstIdx (W0 m ρ c) (A1 m c) rfl
theorem W1_v4 (c : Dev nD) : W1 m ρ c (Proc.devRef .tc main_v4) = Cert.Bridge.Rows.row64 (A3 m c) :=
  Stretch0.biasRow (W0 m ρ c) (A3 m c) rfl
theorem W1_arg0 (c : Dev nD) : W1 m ρ c (Proc.devRef .tc main_arg0) = (A0 m c) :=
  calc W1 m ρ c (Proc.devRef .tc main_arg0)
    _ = W0 m ρ c (Proc.devRef .tc main_arg0) := (by host_keep hostOps0)
    _ = (A0 m c) := rfl
theorem W1_arg2 (c : Dev nD) : W1 m ρ c (Proc.devRef .tc main_arg2) = (A2 m c) :=
  calc W1 m ρ c (Proc.devRef .tc main_arg2)
    _ = W0 m ρ c (Proc.devRef .tc main_arg2) := (by host_keep hostOps0)
    _ = (A2 m c) := rfl
theorem W2_v5 (c : Dev nD) : W2 m ρ c (Proc.devRef .tc main_v5) = Cert.ReferenceIdeal.Read.val_main_v3 (F := Ideal) (A0 m c) (A2 m c) (A3 m c) := by
  refine (W2_arr m ρ c 3).trans ((BlocksLin.final0 (V1 m ρ) c).trans ?_)
  rw [show V1 m ρ c main_arg0 = _ from W1_arg0 m ρ c,
    show V1 m ρ c main_arg2 = _ from W1_arg2 m ρ c,
    show V1 m ρ c main_v4 = _ from W1_v4 m ρ c]
  exact Cert.Bridge.Whole.lin_layer1 (A0 m c) (A2 m c) (A3 m c)
theorem W2_v1 (c : Dev nD) : W2 m ρ c (Proc.devRef .tc main_v1) = Cert.ReferenceIdeal.Read.val_main_v5 (F := Ideal) (A1 m c) :=
  calc W2 m ρ c (Proc.devRef .tc main_v1)
    _ = W1 m ρ c (Proc.devRef .tc main_v1) := (W2_of_ne m ρ c main_v1 (by decide))
    _ = Cert.ReferenceIdeal.Read.val_main_v5 (F := Ideal) (A1 m c) := W1_v1 m ρ c
theorem W2_v3 (c : Dev nD) : W2 m ρ c (Proc.devRef .tc main_v3) = Cert.ReferenceIdeal.Read.val_main_v7 (F := Ideal) (A1 m c) :=
  calc W2 m ρ c (Proc.devRef .tc main_v3)
    _ = W1 m ρ c (Proc.devRef .tc main_v3) := (W2_of_ne m ρ c main_v3 (by decide))
    _ = Cert.ReferenceIdeal.Read.val_main_v7 (F := Ideal) (A1 m c) := W1_v3 m ρ c
theorem W2_arg4 (c : Dev nD) : W2 m ρ c (Proc.devRef .tc main_arg4) = (A4 m c) :=
  calc W2 m ρ c (Proc.devRef .tc main_arg4)
    _ = W1 m ρ c (Proc.devRef .tc main_arg4) := (W2_of_ne m ρ c main_arg4 (by decide))
    _ = W0 m ρ c (Proc.devRef .tc main_arg4) := (by host_keep hostOps0)
    _ = (A4 m c) := rfl
theorem W2_arg5 (c : Dev nD) : W2 m ρ c (Proc.devRef .tc main_arg5) = (A5 m c) :=
  calc W2 m ρ c (Proc.devRef .tc main_arg5)
    _ = W1 m ρ c (Proc.devRef .tc main_arg5) := (W2_of_ne m ρ c main_arg5 (by decide))
    _ = W0 m ρ c (Proc.devRef .tc main_arg5) := (by host_keep hostOps0)
    _ = (A5 m c) := rfl
theorem W3_v12 (c : Dev nD) : W3 m ρ c (Proc.devRef .tc main_v12) = Cert.ReferenceIdeal.Read.val_main_v14 (F := Ideal) (A0 m c) (A1 m c) (A2 m c) (A3 m c) :=
  Stretch1.srcRows (W2 m ρ c) (A0 m c) (A1 m c) (A2 m c) (A3 m c) (W2_v5 m ρ c) (W2_v1 m ρ c)
theorem W3_v19 (c : Dev nD) : W3 m ρ c (Proc.devRef .tc main_v19) = Cert.ReferenceIdeal.Read.val_main_v21 (F := Ideal) (A0 m c) (A1 m c) (A2 m c) (A3 m c) :=
  Stretch1.dstRows (W2 m ρ c) (A0 m c) (A1 m c) (A2 m c) (A3 m c) (W2_v5 m ρ c) (W2_v3 m ρ c)
theorem W3_v20 (c : Dev nD) : W3 m ρ c (Proc.devRef .tc main_v20) = Cert.ReferenceIdeal.Read.val_main_v22 (F := Ideal) (A4 m c) :=
  Stretch1.attnSrc (W2 m ρ c) (A4 m c) (W2_arg4 m ρ c)
theorem W3_v21 (c : Dev nD) : W3 m ρ c (Proc.devRef .tc main_v21) = Cert.ReferenceIdeal.Read.val_main_v24 (F := Ideal) (A4 m c) :=
  Stretch1.attnDst (W2 m ρ c) (A4 m c) (W2_arg4 m ρ c)
theorem W3_v22 (c : Dev nD) : W3 m ρ c (Proc.devRef .tc main_v22) = Cert.Bridge.Rows.row2 (A5 m c) :=
  Stretch1.biasRow (W2 m ρ c) (A5 m c) (W2_arg5 m ρ c)
theorem W4_v23 (c : Dev nD) : W4 m ρ c (Proc.devRef .tc main_v23) = Cert.ReferenceIdeal.Read.val_main_v29 (F := Ideal) (A0 m c) (A1 m c) (A2 m c) (A3 m c) (A4 m c) (A5 m c) := by
  refine (W4_arr m ρ c 5).trans ((BlocksAttn.final1 (V3 m ρ) c).trans ?_)
  rw [show V3 m ρ c main_v12 = _ from W3_v12 m ρ c,
    show V3 m ρ c main_v19 = _ from W3_v19 m ρ c,
    show V3 m ρ c main_v20 = _ from W3_v20 m ρ c,
    show V3 m ρ c main_v21 = _ from W3_v21 m ρ c,
    show V3 m ρ c main_v22 = _ from W3_v22 m ρ c]
  exact Cert.Bridge.Whole.attn_layer1 (A0 m c) (A1 m c) (A2 m c) (A3 m c) (A4 m c) (A5 m c)
theorem W4_v12 (c : Dev nD) : W4 m ρ c (Proc.devRef .tc main_v12) = Cert.ReferenceIdeal.Read.val_main_v14 (F := Ideal) (A0 m c) (A1 m c) (A2 m c) (A3 m c) :=
  calc W4 m ρ c (Proc.devRef .tc main_v12)
    _ = W3 m ρ c (Proc.devRef .tc main_v12) := ((W4_arr m ρ c 0).trans (((dat1 (V3 m ρ) c).arrAt_in 0 rfl _).trans (A_eq1 (V3 m ρ) c 0)))
    _ = Cert.ReferenceIdeal.Read.val_main_v14 (F := Ideal) (A0 m c) (A1 m c) (A2 m c) (A3 m c) := W3_v12 m ρ c
theorem W4_v3 (c : Dev nD) : W4 m ρ c (Proc.devRef .tc main_v3) = Cert.ReferenceIdeal.Read.val_main_v7 (F := Ideal) (A1 m c) :=
  calc W4 m ρ c (Proc.devRef .tc main_v3)
    _ = W3 m ρ c (Proc.devRef .tc main_v3) := (W4_of_ne m ρ c main_v3 (by decide))
    _ = W2 m ρ c (Proc.devRef .tc main_v3) := (by host_keep hostOps1)
    _ = W1 m ρ c (Proc.devRef .tc main_v3) := (W2_of_ne m ρ c main_v3 (by decide))
    _ = Cert.ReferenceIdeal.Read.val_main_v7 (F := Ideal) (A1 m c) := W1_v3 m ρ c
theorem W5_v44 (c : Dev nD) : W5 m ρ c (Proc.devRef .tc main_v44) = Cert.ReferenceIdeal.Read.val_main_v50 (F := Ideal) (A0 m c) (A1 m c) (A2 m c) (A3 m c) (A4 m c) (A5 m c) :=
  Stretch2.scattered (W4 m ρ c) (A0 m c) (A1 m c) (A2 m c) (A3 m c) (A4 m c) (A5 m c) (W4_v23 m ρ c) (W4_v12 m ρ c) (W4_v3 m ρ c)
theorem W5_v5 (c : Dev nD) : W5 m ρ c (Proc.devRef .tc main_v5) = Cert.ReferenceIdeal.Read.val_main_v3 (F := Ideal) (A0 m c) (A2 m c) (A3 m c) :=
  calc W5 m ρ c (Proc.devRef .tc main_v5)
    _ = W4 m ρ c (Proc.devRef .tc main_v5) := (by host_keep hostOps2)
    _ = W3 m ρ c (Proc.devRef .tc main_v5) := (W4_of_ne m ρ c main_v5 (by decide))
    _ = W2 m ρ c (Proc.devRef .tc main_v5) := (by host_keep hostOps1)
    _ = Cert.ReferenceIdeal.Read.val_main_v3 (F := Ideal) (A0 m c) (A2 m c) (A3 m c) := W2_v5 m ρ c
theorem W6_v45 (c : Dev nD) : W6 m ρ c (Proc.devRef .tc main_v45) = Cert.ReferenceIdeal.Read.val_main_v52 (F := Ideal) (A0 m c) (A1 m c) (A2 m c) (A3 m c) (A4 m c) (A5 m c) := by
  refine (W6_arr m ρ c 2).trans ((BlocksAddRelu.final2 (V5 m ρ) c).trans ?_)
  rw [show V5 m ρ c main_v44 = _ from W5_v44 m ρ c,
    show V5 m ρ c main_v5 = _ from W5_v5 m ρ c]
  exact Cert.Bridge.Whole.addRelu_layer1 (A0 m c) (A1 m c) (A2 m c) (A3 m c) (A4 m c) (A5 m c)

/-! ## Layer 2 -/

theorem W6_arg7 (c : Dev nD) : W6 m ρ c (Proc.devRef .tc main_arg7) = (A7 m c) :=
  calc W6 m ρ c (Proc.devRef .tc main_arg7)
    _ = W5 m ρ c (Proc.devRef .tc main_arg7) := (W6_of_ne m ρ c main_arg7 (by decide))
    _ = W4 m ρ c (Proc.devRef .tc main_arg7) := (by host_keep hostOps2)
    _ = W3 m ρ c (Proc.devRef .tc main_arg7) := (W4_of_ne m ρ c main_arg7 (by decide))
    _ = W2 m ρ c (Proc.devRef .tc main_arg7) := (by host_keep hostOps1)
    _ = W1 m ρ c (Proc.devRef .tc main_arg7) := (W2_of_ne m ρ c main_arg7 (by decide))
    _ = W0 m ρ c (Proc.devRef .tc main_arg7) := (by host_keep hostOps0)
    _ = (A7 m c) := rfl
theorem W7_v46 (c : Dev nD) : W7 m ρ c (Proc.devRef .tc main_v46) = Cert.Bridge.Rows.row64 (A7 m c) :=
  Stretch3.biasRow (W6 m ρ c) (A7 m c) (W6_arg7 m ρ c)
theorem W7_v45 (c : Dev nD) : W7 m ρ c (Proc.devRef .tc main_v45) = Cert.ReferenceIdeal.Read.val_main_v52 (F := Ideal) (A0 m c) (A1 m c) (A2 m c) (A3 m c) (A4 m c) (A5 m c) :=
  calc W7 m ρ c (Proc.devRef .tc main_v45)
    _ = W6 m ρ c (Proc.devRef .tc main_v45) := (by host_keep hostOps3)
    _ = Cert.ReferenceIdeal.Read.val_main_v52 (F := Ideal) (A0 m c) (A1 m c) (A2 m c) (A3 m c) (A4 m c) (A5 m c) := W6_v45 m ρ c
theorem W7_arg6 (c : Dev nD) : W7 m ρ c (Proc.devRef .tc main_arg6) = (A6 m c) :=
  calc W7 m ρ c (Proc.devRef .tc main_arg6)
    _ = W8 m ρ c (Proc.devRef .tc main_arg6) := Eq.symm ((W8_arr m ρ c 1).trans (((dat3 (V7 m ρ) c).arrAt_in 1 rfl _).trans (A_eq3 (V7 m ρ) c 1)))
    _ = W9 m ρ c (Proc.devRef .tc main_arg6) := Eq.symm (by host_keep hostOps4)
    _ = W10 m ρ c (Proc.devRef .tc main_arg6) := Eq.symm (W10_of_ne m ρ c main_arg6 (by decide))
    _ = W11 m ρ c (Proc.devRef .tc main_arg6) := Eq.symm (by host_keep hostOps5)
    _ = W12 m ρ c (Proc.devRef .tc main_arg6) := Eq.symm (W12_of_ne m ρ c main_arg6 (by decide))
    _ = W13 m ρ c (Proc.devRef .tc main_arg6) := Eq.symm (by host_keep hostOps6)
    _ = W14 m ρ c (Proc.devRef .tc main_arg6) := Eq.symm (W14_of_ne m ρ c main_arg6 (by decide))
    _ = (A6 m c) := W14_main_arg6 m ρ c
theorem W8_v47 (c : Dev nD) : W8 m ρ c (Proc.devRef .tc main_v47) = Cert.ReferenceIdeal.Read.val_main_v56 (F := Ideal) (A0 m c) (A1 m c) (A2 m c) (A3 m c) (A4 m c) (A5 m c) (A6 m c) (A7 m c) := by
  refine (W8_arr m ρ c 3).trans ((BlocksLin.final3 (V7 m ρ) c).trans ?_)
  rw [show V7 m ρ c main_v45 = _ from W7_v45 m ρ c,
    show V7 m ρ c main_arg6 = _ from W7_arg6 m ρ c,
    show V7 m ρ c main_v46 = _ from W7_v46 m ρ c]
  exact Cert.Bridge.Whole.lin_layer2 (A0 m c) (A1 m c) (A2 m c) (A3 m c) (A4 m c) (A5 m c) (A6 m c) (A7 m c)
theorem W8_v1 (c : Dev nD) : W8 m ρ c (Proc.devRef .tc main_v1) = Cert.ReferenceIdeal.Read.val_main_v5 (F := Ideal) (A1 m c) :=
  calc W8 m ρ c (Proc.devRef .tc main_v1)
    _ = W7 m ρ c (Proc.devRef .tc main_v1) := (W8_of_ne m ρ c main_v1 (by decide))
    _ = W6 m ρ c (Proc.devRef .tc main_v1) := (by host_keep hostOps3)
    _ = W5 m ρ c (Proc.devRef .tc main_v1) := (W6_of_ne m ρ c main_v1 (by decide))
    _ = W4 m ρ c (Proc.devRef .tc main_v1) := (by host_keep hostOps2)
    _ = W3 m ρ c (Proc.devRef .tc main_v1) := (W4_of_ne m ρ c main_v1 (by decide))
    _ = W2 m ρ c (Proc.devRef .tc main_v1) := (by host_keep hostOps1)
    _ = W1 m ρ c (Proc.devRef .tc main_v1) := (W2_of_ne m ρ c main_v1 (by decide))
    _ = Cert.ReferenceIdeal.Read.val_main_v5 (F := Ideal) (A1 m c) := W1_v1 m ρ c
theorem W8_v3 (c : Dev nD) : W8 m ρ c (Proc.devRef .tc main_v3) = Cert.ReferenceIdeal.Read.val_main_v7 (F := Ideal) (A1 m c) :=
  calc W8 m ρ c (Proc.devRef .tc main_v3)
    _ = W7 m ρ c (Proc.devRef .tc main_v3) := (W8_of_ne m ρ c main_v3 (by decide))
    _ = W6 m ρ c (Proc.devRef .tc main_v3) := (by host_keep hostOps3)
    _ = W5 m ρ c (Proc.devRef .tc main_v3) := (W6_of_ne m ρ c main_v3 (by decide))
    _ = W4 m ρ c (Proc.devRef .tc main_v3) := (by host_keep hostOps2)
    _ = W3 m ρ c (Proc.devRef .tc main_v3) := (W4_of_ne m ρ c main_v3 (by decide))
    _ = W2 m ρ c (Proc.devRef .tc main_v3) := (by host_keep hostOps1)
    _ = W1 m ρ c (Proc.devRef .tc main_v3) := (W2_of_ne m ρ c main_v3 (by decide))
    _ = Cert.ReferenceIdeal.Read.val_main_v7 (F := Ideal) (A1 m c) := W1_v3 m ρ c
theorem W8_arg8 (c : Dev nD) : W8 m ρ c (Proc.devRef .tc main_arg8) = (A8 m c) :=
  calc W8 m ρ c (Proc.devRef .tc main_arg8)
    _ = W9 m ρ c (Proc.devRef .tc main_arg8) := Eq.symm (by host_keep hostOps4)
    _ = W10 m ρ c (Proc.devRef .tc main_arg8) := Eq.symm (W10_of_ne m ρ c main_arg8 (by decide))
    _ = W11 m ρ c (Proc.devRef .tc main_arg8) := Eq.symm (by host_keep hostOps5)
    _ = W12 m ρ c (Proc.devRef .tc main_arg8) := Eq.symm (W12_of_ne m ρ c main_arg8 (by decide))
    _ = W13 m ρ c (Proc.devRef .tc main_arg8) := Eq.symm (by host_keep hostOps6)
    _ = W14 m ρ c (Proc.devRef .tc main_arg8) := Eq.symm (W14_of_ne m ρ c main_arg8 (by decide))
    _ = (A8 m c) := W14_main_arg8 m ρ c
theorem W8_arg9 (c : Dev nD) : W8 m ρ c (Proc.devRef .tc main_arg9) = (A9 m c) :=
  calc W8 m ρ c (Proc.devRef .tc main_arg9)
    _ = W9 m ρ c (Proc.devRef .tc main_arg9) := Eq.symm (by host_keep hostOps4)
    _ = W10 m ρ c (Proc.devRef .tc main_arg9) := Eq.symm (W10_of_ne m ρ c main_arg9 (by decide))
    _ = W11 m ρ c (Proc.devRef .tc main_arg9) := Eq.symm (by host_keep hostOps5)
    _ = W12 m ρ c (Proc.devRef .tc main_arg9) := Eq.symm (W12_of_ne m ρ c main_arg9 (by decide))
    _ = W13 m ρ c (Proc.devRef .tc main_arg9) := Eq.symm (by host_keep hostOps6)
    _ = W14 m ρ c (Proc.devRef .tc main_arg9) := Eq.symm (W14_of_ne m ρ c main_arg9 (by decide))
    _ = (A9 m c) := W14_main_arg9 m ρ c
theorem W9_v54 (c : Dev nD) : W9 m ρ c (Proc.devRef .tc main_v54) = Cert.ReferenceIdeal.Read.val_main_v67 (F := Ideal) (A0 m c) (A1 m c) (A2 m c) (A3 m c) (A4 m c) (A5 m c) (A6 m c) (A7 m c) :=
  Stretch4.srcRows (W8 m ρ c) (A0 m c) (A1 m c) (A2 m c) (A3 m c) (A4 m c) (A5 m c) (A6 m c) (A7 m c) (W8_v47 m ρ c) (W8_v1 m ρ c)
theorem W9_v61 (c : Dev nD) : W9 m ρ c (Proc.devRef .tc main_v61) = Cert.ReferenceIdeal.Read.val_main_v74 (F := Ideal) (A0 m c) (A1 m c) (A2 m c) (A3 m c) (A4 m c) (A5 m c) (A6 m c) (A7 m c) :=
  Stretch4.dstRows (W8 m ρ c) (A0 m c) (A1 m c) (A2 m c) (A3 m c) (A4 m c) (A5 m c) (A6 m c) (A7 m c) (W8_v47 m ρ c) (W8_v3 m ρ c)
theorem W9_v62 (c : Dev nD) : W9 m ρ c (Proc.devRef .tc main_v62) = Cert.ReferenceIdeal.Read.val_main_v75 (F := Ideal) (A8 m c) :=
  Stretch4.attnSrc (W8 m ρ c) (A8 m c) (W8_arg8 m ρ c)
theorem W9_v63 (c : Dev nD) : W9 m ρ c (Proc.devRef .tc main_v63) = Cert.ReferenceIdeal.Read.val_main_v77 (F := Ideal) (A8 m c) :=
  Stretch4.attnDst (W8 m ρ c) (A8 m c) (W8_arg8 m ρ c)
theorem W9_v64 (c : Dev nD) : W9 m ρ c (Proc.devRef .tc main_v64) = Cert.Bridge.Rows.row2 (A9 m c) :=
  Stretch4.biasRow (W8 m ρ c) (A9 m c) (W8_arg9 m ρ c)
theorem W10_v65 (c : Dev nD) : W10 m ρ c (Proc.devRef .tc main_v65) = Cert.ReferenceIdeal.Read.val_main_v82 (F := Ideal) (A0 m c) (A1 m c) (A2 m c) (A3 m c) (A4 m c) (A5 m c) (A6 m c) (A7 m c) (A8 m c) (A9 m c) := by
  refine (W10_arr m ρ c 5).trans ((BlocksAttn.final4 (V9 m ρ) c).trans ?_)
  rw [show V9 m ρ c main_v54 = _ from W9_v54 m ρ c,
    show V9 m ρ c main_v61 = _ from W9_v61 m ρ c,
    show V9 m ρ c main_v62 = _ from W9_v62 m ρ c,
    show V9 m ρ c main_v63 = _ from W9_v63 m ρ c,
    show V9 m ρ c main_v64 = _ from W9_v64 m ρ c]
  exact Cert.Bridge.Whole.attn_layer2 (A0 m c) (A1 m c) (A2 m c) (A3 m c) (A4 m c) (A5 m c) (A6 m c) (A7 m c) (A8 m c) (A9 m c)
theorem W10_v54 (c : Dev nD) : W10 m ρ c (Proc.devRef .tc main_v54) = Cert.ReferenceIdeal.Read.val_main_v67 (F := Ideal) (A0 m c) (A1 m c) (A2 m c) (A3 m c) (A4 m c) (A5 m c) (A6 m c) (A7 m c) :=
  calc W10 m ρ c (Proc.devRef .tc main_v54)
    _ = W9 m ρ c (Proc.devRef .tc main_v54) := ((W10_arr m ρ c 0).trans (((dat4 (V9 m ρ) c).arrAt_in 0 rfl _).trans (A_eq4 (V9 m ρ) c 0)))
    _ = Cert.ReferenceIdeal.Read.val_main_v67 (F := Ideal) (A0 m c) (A1 m c) (A2 m c) (A3 m c) (A4 m c) (A5 m c) (A6 m c) (A7 m c) := W9_v54 m ρ c
theorem W10_v3 (c : Dev nD) : W10 m ρ c (Proc.devRef .tc main_v3) = Cert.ReferenceIdeal.Read.val_main_v7 (F := Ideal) (A1 m c) :=
  calc W10 m ρ c (Proc.devRef .tc main_v3)
    _ = W9 m ρ c (Proc.devRef .tc main_v3) := (W10_of_ne m ρ c main_v3 (by decide))
    _ = W8 m ρ c (Proc.devRef .tc main_v3) := (by host_keep hostOps4)
    _ = W7 m ρ c (Proc.devRef .tc main_v3) := (W8_of_ne m ρ c main_v3 (by decide))
    _ = W6 m ρ c (Proc.devRef .tc main_v3) := (by host_keep hostOps3)
    _ = W5 m ρ c (Proc.devRef .tc main_v3) := (W6_of_ne m ρ c main_v3 (by decide))
    _ = W4 m ρ c (Proc.devRef .tc main_v3) := (by host_keep hostOps2)
    _ = W3 m ρ c (Proc.devRef .tc main_v3) := (W4_of_ne m ρ c main_v3 (by decide))
    _ = W2 m ρ c (Proc.devRef .tc main_v3) := (by host_keep hostOps1)
    _ = W1 m ρ c (Proc.devRef .tc main_v3) := (W2_of_ne m ρ c main_v3 (by decide))
    _ = Cert.ReferenceIdeal.Read.val_main_v7 (F := Ideal) (A1 m c) := W1_v3 m ρ c
theorem W11_v86 (c : Dev nD) : W11 m ρ c (Proc.devRef .tc main_v86) = Cert.ReferenceIdeal.Read.val_main_v103 (F := Ideal) (A0 m c) (A1 m c) (A2 m c) (A3 m c) (A4 m c) (A5 m c) (A6 m c) (A7 m c) (A8 m c) (A9 m c) :=
  Stretch5.scattered (W10 m ρ c) (A0 m c) (A1 m c) (A2 m c) (A3 m c) (A4 m c) (A5 m c) (A6 m c) (A7 m c) (A8 m c) (A9 m c) (W10_v65 m ρ c) (W10_v54 m ρ c) (W10_v3 m ρ c)
theorem W11_v47 (c : Dev nD) : W11 m ρ c (Proc.devRef .tc main_v47) = Cert.ReferenceIdeal.Read.val_main_v56 (F := Ideal) (A0 m c) (A1 m c) (A2 m c) (A3 m c) (A4 m c) (A5 m c) (A6 m c) (A7 m c) :=
  calc W11 m ρ c (Proc.devRef .tc main_v47)
    _ = W10 m ρ c (Proc.devRef .tc main_v47) := (by host_keep hostOps5)
    _ = W9 m ρ c (Proc.devRef .tc main_v47) := (W10_of_ne m ρ c main_v47 (by decide))
    _ = W8 m ρ c (Proc.devRef .tc main_v47) := (by host_keep hostOps4)
    _ = Cert.ReferenceIdeal.Read.val_main_v56 (F := Ideal) (A0 m c) (A1 m c) (A2 m c) (A3 m c) (A4 m c) (A5 m c) (A6 m c) (A7 m c) := W8_v47 m ρ c
theorem W12_v87 (c : Dev nD) : W12 m ρ c (Proc.devRef .tc main_v87) = Cert.ReferenceIdeal.Read.val_main_v105 (F := Ideal) (A0 m c) (A1 m c) (A2 m c) (A3 m c) (A4 m c) (A5 m c) (A6 m c) (A7 m c) (A8 m c) (A9 m c) := by
  refine (W12_arr m ρ c 2).trans ((BlocksAddRelu.final5 (V11 m ρ) c).trans ?_)
  rw [show V11 m ρ c main_v86 = _ from W11_v86 m ρ c,
    show V11 m ρ c main_v47 = _ from W11_v47 m ρ c]
  exact Cert.Bridge.Whole.addRelu_layer2 (A0 m c) (A1 m c) (A2 m c) (A3 m c) (A4 m c) (A5 m c) (A6 m c) (A7 m c) (A8 m c) (A9 m c)

/-! ## The classifier -/

theorem W12_arg11 (c : Dev nD) : W12 m ρ c (Proc.devRef .tc main_arg11) = (A11 m c) :=
  calc W12 m ρ c (Proc.devRef .tc main_arg11)
    _ = W13 m ρ c (Proc.devRef .tc main_arg11) := Eq.symm (by host_keep hostOps6)
    _ = W14 m ρ c (Proc.devRef .tc main_arg11) := Eq.symm (W14_of_ne m ρ c main_arg11 (by decide))
    _ = (A11 m c) := W14_main_arg11 m ρ c
theorem W12_arg13 (c : Dev nD) : W12 m ρ c (Proc.devRef .tc main_arg13) = (A13 m c) :=
  calc W12 m ρ c (Proc.devRef .tc main_arg13)
    _ = W13 m ρ c (Proc.devRef .tc main_arg13) := Eq.symm (by host_keep hostOps6)
    _ = W14 m ρ c (Proc.devRef .tc main_arg13) := Eq.symm (W14_of_ne m ρ c main_arg13 (by decide))
    _ = (A13 m c) := W14_main_arg13 m ρ c
theorem W13_v88 (c : Dev nD) : W13 m ρ c (Proc.devRef .tc main_v88) = Cert.Bridge.Rows.row32 (A11 m c) :=
  Stretch6.hiddenBiasRow (W12 m ρ c) (A11 m c) (W12_arg11 m ρ c)
theorem W13_v89 (c : Dev nD) : W13 m ρ c (Proc.devRef .tc main_v89) = Cert.Bridge.Rows.row2 (A13 m c) :=
  Stretch6.outBiasRow (W12 m ρ c) (A13 m c) (W12_arg13 m ρ c)
theorem W13_v87 (c : Dev nD) : W13 m ρ c (Proc.devRef .tc main_v87) = Cert.ReferenceIdeal.Read.val_main_v105 (F := Ideal) (A0 m c) (A1 m c) (A2 m c) (A3 m c) (A4 m c) (A5 m c) (A6 m c) (A7 m c) (A8 m c) (A9 m c) :=
  calc W13 m ρ c (Proc.devRef .tc main_v87)
    _ = W12 m ρ c (Proc.devRef .tc main_v87) := (by host_keep hostOps6)
    _ = Cert.ReferenceIdeal.Read.val_main_v105 (F := Ideal) (A0 m c) (A1 m c) (A2 m c) (A3 m c) (A4 m c) (A5 m c) (A6 m c) (A7 m c) (A8 m c) (A9 m c) := W12_v87 m ρ c
theorem W13_arg10 (c : Dev nD) : W13 m ρ c (Proc.devRef .tc main_arg10) = (A10 m c) :=
  calc W13 m ρ c (Proc.devRef .tc main_arg10)
    _ = W14 m ρ c (Proc.devRef .tc main_arg10) := Eq.symm ((W14_arr m ρ c 1).trans (((dat6 (V13 m ρ) c).arrAt_in 1 rfl _).trans (A_eq6 (V13 m ρ) c 1)))
    _ = (A10 m c) := W14_main_arg10 m ρ c
theorem W13_arg12 (c : Dev nD) : W13 m ρ c (Proc.devRef .tc main_arg12) = (A12 m c) :=
  calc W13 m ρ c (Proc.devRef .tc main_arg12)
    _ = W14 m ρ c (Proc.devRef .tc main_arg12) := Eq.symm ((W14_arr m ρ c 3).trans (((dat6 (V13 m ρ) c).arrAt_in 3 rfl _).trans (A_eq6 (V13 m ρ) c 3)))
    _ = (A12 m c) := W14_main_arg12 m ρ c
/-- THE RESULT: at the last boundary the result buffer holds the reference's result, as a term of @main's arguments. -/
theorem result (c : Dev nD) : W14 m ρ c (Proc.devRef .tc main_v90) = Cert.ReferenceIdeal.Read.val_main_v114 (F := Ideal) (A0 m c) (A1 m c) (A2 m c) (A3 m c) (A4 m c) (A5 m c) (A6 m c) (A7 m c) (A8 m c) (A9 m c) (A10 m c) (A11 m c) (A12 m c) (A13 m c) := by
  refine (W14_arr m ρ c 5).trans ((BlocksCls.final6 (V13 m ρ) c).trans ?_)
  rw [show V13 m ρ c main_v87 = _ from W13_v87 m ρ c,
    show V13 m ρ c main_arg10 = _ from W13_arg10 m ρ c,
    show V13 m ρ c main_v88 = _ from W13_v88 m ρ c,
    show V13 m ρ c main_arg12 = _ from W13_arg12 m ρ c,
    show V13 m ρ c main_v89 = _ from W13_v89 m ρ c]
  exact Cert.Bridge.Whole.cls_final (A0 m c) (A1 m c) (A2 m c) (A3 m c) (A4 m c) (A5 m c) (A6 m c) (A7 m c) (A8 m c) (A9 m c) (A10 m c) (A11 m c) (A12 m c) (A13 m c)

end Cert.KernelIdeal.Chain

end
-- ==== Proof.lean ====
/-
  Two layers of graph attention followed by a two-layer classifier, the kernel against its plain reference, over the
  extended reals. Per layer: h = x · W + b; the rows of h gathered at each edge's source and destination; the attention
  logit of an edge, (source row) · A₁ + (destination row) · A₂ + a; a softmax of the logits over ALL edges, per head; the
  messages, each edge's two weights times the first 32 features of its source row; their sums scattered to the
  destination nodes; and max (that + h) 0. Then max (x · Wc₁ + bc₁) 0 · Wc₂ + bc₂.

  The kernel computes the projections, the logits, the combining step and the classifier in tiled regions, ten thousand
  rows at a time, and everything else — the gathers, the softmax, the messages, the scatter — by the same host operations,
  in the same order, as the reference. At the extended reals a change of float format is the identity and a matrix product
  into a zero accumulator is the plain sum over the shared coordinate, and no region splits that coordinate; so each
  region's output array is, entry by entry, what the reference computes from the same inputs, by the same additions and
  products in the same grouping. The two programs therefore agree by congruence alone, stage by stage: no distributivity,
  no cancellation, nothing that would fail at an infinity is used, and the precondition (finite inputs) is never opened.

  The modules: `RunAll` (the kernel's run with every buffer named), `PayloadAt` / `StageAt` (each region body and each
  reference stage read at an index), `BlocksLin` / `BlocksAttn` / `BlocksAddRelu` / `BlocksCls` (from a region's blocks to its
  whole output array), `Rows` and `Bridge` (the joins), `Stretch0 … Stretch6` (the host stretches), `Chain` (the buffers
  boundary by boundary, ending in the result).
-/
import proofs.«151397_j43499428774652_2_alg».proof.Defs
import proofs.«151397_j43499428774652_2_alg».proof.Proof.Gen.Kernel
import proofs.«151397_j43499428774652_2_alg».proof.Proof.Gen.Kernel.Skeleton
import proofs.«151397_j43499428774652_2_alg».proof.Proof.Gen.Kernel.Launch
import proofs.«151397_j43499428774652_2_alg».proof.Proof.Gen.Kernel.Points
import proofs.«151397_j43499428774652_2_alg».proof.Proof.Gen.Kernel.Frame
import proofs.«151397_j43499428774652_2_alg».proof.Proof.Gen.KernelIdeal
import proofs.«151397_j43499428774652_2_alg».proof.Proof.Gen.KernelIdeal.Skeleton
import proofs.«151397_j43499428774652_2_alg».proof.Proof.Gen.KernelIdeal.Launch
import proofs.«151397_j43499428774652_2_alg».proof.Proof.Gen.KernelIdeal.Points
import proofs.«151397_j43499428774652_2_alg».proof.Proof.Gen.KernelIdeal.Frame
import proofs.«151397_j43499428774652_2_alg».proof.Proof.Gen.ReferenceIdeal
import proofs.«151397_j43499428774652_2_alg».proof.Proof.Gen.ReferenceIdeal.Run
import proofs.«151397_j43499428774652_2_alg».proof.Proof.Gen.ReferenceIdeal.Read
import proofs.«151397_j43499428774652_2_alg».proof.Proof.Gen.Pre_finite_inputs
import proofs.«151397_j43499428774652_2_alg».proof.Proof.RunAll
import proofs.«151397_j43499428774652_2_alg».proof.Proof.Chain
import Idealize.ShloMosaic.Adequacy
import Idealize.ShloMosaic.Init

set_option maxRecDepth 16384

noncomputable section

namespace Cert.Proof

open Idealize.ShloMosaic Idealize.SL.Sem

/-- The kernel as printed runs and keeps its arguments. -/
theorem frame_kernel [hK : Cert.Kernel.Facts] [hP : Cert.Pre_finite_inputs.Facts] : Cert.frame_Kernel :=
  fun m ρ _ => Cert.Kernel.Gen.frame m ρ

/-- The idealized kernel runs and keeps its arguments. -/
theorem frame_kernelIdeal [hK : Cert.KernelIdeal.Facts] [hP : Cert.Pre_finite_inputs.Facts] : Cert.frame_KernelIdeal :=
  fun m ρ _ => Cert.KernelIdeal.Gen.frame m ρ

/-- The idealized reference runs and keeps its arguments: its run with the result dropped. -/
theorem frame_referenceIdeal [hR : Cert.ReferenceIdeal.Facts] [hP : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealized kernel's run ends with its result buffer at the reference's result term of the launch arguments (the
    run with every buffer named, read at the result buffer and at each argument, then the chain of boundaries), and the
    reference's run ends at the same term of its own arguments, which are the kernel's. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v90 (by decide))).trans (Cert.KernelIdeal.Chain.result m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c),
      (h c _ (Cert.KernelIdeal.Gen.mem_uc Cert.KernelIdeal.main_arg12 (by decide))).trans (Cert.KernelIdeal.Gen.W14_main_arg12 m ρ c),
      (h c _ (Cert.KernelIdeal.Gen.mem_uc Cert.KernelIdeal.main_arg13 (by decide))).trans (Cert.KernelIdeal.Gen.W14_main_arg13 m ρ c)⟩
  · refine (θ_run Cert.ReferenceIdeal.defs _ _).mono (fun r h c => ⟨?_, (h c).2⟩) (Cert.ReferenceIdeal.Value.run (F := Ideal) m' ρ')
    obtain ⟨g0, g1, g2, g3, g4, g5, g6, g7, g8, g9, g10, g11, g12, g13⟩ := hagree c
    refine (h c).1.trans ((Cert.ReferenceIdeal.Read.val_main_v114_eq (F := Ideal) m' c).trans ?_)
    rw [g0, g1, g2, g3, g4, g5, g6, g7, g8, g9, g10, g11, g12, g13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
